-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512x1 .f32) (main_arg8 : FVec F S1 .f32) (main_v33 : IVec S_ 1) : IVec S_ 1 :=
  let main_v34 : FVec F S512x1 .f32 := Host.absf main_arg7
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S512x512 .f32) (main_arg5 : FVec F S512 .f32) (main_arg6 : FVec F S512 .f32) (main_arg7 : FVec F S512x1 .f32) (main_arg8 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S10000x512 .f32) (main_arg1 : FVec F S10000x10000 .f32) (main_arg2 : FVec F S1024x512 .f32) (main_arg3 : FVec F S512 .f32) (main_arg4 : FVec F S512x512 .f32) (main_arg5 : FVec F S512 .f32) (main_arg6 : FVec F S512 .f32) (main_arg7 : FVec F S512x1 .f32) (main_arg8 : FVec F S1 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S10000x512 : Shape := ⟨2, ![10000, 512]⟩
abbrev S10000x10000 : Shape := ⟨2, ![10000, 10000]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S10000x1 : Shape := ⟨2, ![10000, 1]⟩
abbrev S200x10000 : Shape := ⟨2, ![200, 10000]⟩
abbrev S400x1 : Shape := ⟨2, ![400, 1]⟩
abbrev S200x512 : Shape := ⟨2, ![200, 512]⟩
abbrev S400x512 : Shape := ⟨2, ![400, 512]⟩

abbrev nBuf : Space → Nat
  | .hbm => 16
  | .vmem => 15
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S512x512, .f32⟩
  | .hbm, ⟨10, _⟩ => ⟨S512x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x1, .f32⟩
  | .hbm, ⟨15, _⟩ => ⟨S10000x1, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x1, .f32⟩
  | .local _ .vmem, ⟨12, _⟩ => ⟨S1x1, .f32⟩
  | .local _ .vmem, ⟨13, _⟩ => ⟨S400x1, .f32⟩
  | .local _ .vmem, ⟨14, _⟩ => ⟨S400x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_8 : Index := 0#32
  ![v8.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S400x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x512_S512x512_0_0 : S1024x512.Slices ![0, 0] S512x512
  slices_S1024x512_S512x512_512_0 : S1024x512.Slices ![512, 0] S512x512
  shapeCasts_S512_S1x512 : S512.ShapeCasts S1x512
  shapeCasts_S1_S1x1 : S1.ShapeCasts S1x1
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  concatenates_S200x512_S200x512_S400x512_d0 : Shape.Concatenates [S200x512, S200x512] S400x512 0
  h_S400x512 : 0 < S400x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  dot_S200x10000_S10000x512_S200x512_1_0_0_1_n_n_wf : DotDims.WF S200x10000 S10000x512 S200x512 [1] [0] [0] [1] [] []
  dot_S400x512_S512x512_S400x512_1_0_0_1_n_n_wf : DotDims.WF S400x512 S512x512 S400x512 [1] [0] [0] [1] [] []
  dot_S400x512_S512x1_S400x1_1_0_0_1_n_n_wf : DotDims.WF S400x512 S512x1 S400x1 [1] [0] [0] [1] [] []
  hrank0 : 0 < grid0.rank
  k0_off1_inb : ∀ i : grid0.Coords, ∀ a, (k0_off1 i) a + S400x512.size a ≤ S10000x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x512.size a ≤ S10000x512.size a
  hwx0_2 : ∀ i : grid0.Coords, EltTy.bits .f32 = 32 ∨ (Rect.block (s := S10000x512) S10000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x1.size a ≤ S10000x1.size a
  hwx0_11 : ∀ i : grid0.Coords, EltTy.bits .f32 = 32 ∨ (Rect.block (s := S10000x1) S400x1.size (cc0_transform_11 i) (hinb0_11 i)).WholeWords (EltTy.packing .f32)

variable [Facts₀]

def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x512_S512x1_S400x1_1_0_0_1_n_n : DotDims S400x512 S512x1 S400x1 where
  lhsContracting := [1]
  rhsContracting := [0]
  lhsNonContracting := [0]
  rhsNonContracting := [1]
  lhsBatch := []
  rhsBatch := []
  wf := dot_S400x512_S512x1_S400x1_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v5) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S400x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S10000x1024 : Shape := ⟨2, ![10000, 1024]⟩
abbrev S1x512 : Shape := ⟨2, ![1, 512]⟩
abbrev S_ : Shape := ⟨0, ![]⟩
abbrev S10000x1 : Shape := ⟨2, ![10000, 1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S10000x512, .f32⟩
  | .hbm, ⟨10, _⟩ => ⟨S10000x1024, .f32⟩
  | .hbm, ⟨11, _⟩ => ⟨S10000x512, .f32⟩
  | .hbm, ⟨12, _⟩ => ⟨S1x512, .f32⟩
  | .hbm, ⟨13, _⟩ => ⟨S10000x512, .f32⟩
  | .hbm, ⟨14, _⟩ => ⟨S10000x512, .f32⟩
  | .hbm, ⟨15, _⟩ => ⟨S_, .f32⟩
  | .hbm, ⟨16, _⟩ => ⟨S10000x512, .f32⟩
  | .hbm, ⟨17, _⟩ => ⟨S10000x512, .f32⟩
  | .hbm, ⟨18, _⟩ => ⟨S10000x512, .f32⟩
  | .hbm, ⟨19, _⟩ => ⟨S1x512, .f32⟩
  | .hbm, ⟨20, _⟩ => ⟨S10000x512, .f32⟩
  | .hbm, ⟨21, _⟩ => ⟨S10000x512, .f32⟩
  | .hbm, ⟨22, _⟩ => ⟨S_, .f32⟩
  | .hbm, ⟨23, _⟩ => ⟨S10000x512, .f32⟩
  | .hbm, ⟨24, _⟩ => ⟨S10000x512, .i1⟩
  | .hbm, ⟨25, _⟩ => ⟨S1x512, .f32⟩
  | .hbm, ⟨26, _⟩ => ⟨S10000x512, .f32⟩
  | .hbm, ⟨27, _⟩ => ⟨S10000x512, .f32⟩
  | .hbm, ⟨28, _⟩ => ⟨S10000x512, .f32⟩
  | .hbm, ⟨29, _⟩ => ⟨S10000x1, .f32⟩
  | .hbm, ⟨30, _⟩ => ⟨S1x1, .f32⟩
  | .hbm, ⟨31, _⟩ => ⟨S10000x1, .f32⟩
  | .hbm, ⟨32, _⟩ => ⟨S10000x1, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  concatenates_S10000x512_S10000x512_S10000x1024_d1 : Shape.Concatenates [S10000x512, S10000x512] S10000x1024 1
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x512_S10000x512_1_0_0_1_n_n_wf : DotDims.WF S10000x10000 S10000x512 S10000x512 [1] [0] [0] [1] [] []
  dot_S10000x1024_S1024x512_S10000x512_1_0_0_1_n_n_wf : DotDims.WF S10000x1024 S1024x512 S10000x512 [1] [0] [0] [1] [] []
  dot_S10000x512_S512x512_S10000x512_1_0_0_1_n_n_wf : DotDims.WF S10000x512 S512x512 S10000x512 [1] [0] [0] [1] [] []
  dot_S10000x512_S512x1_S10000x1_1_0_0_1_n_n_wf : DotDims.WF S10000x512 S512x1 S10000x1 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf

class Facts : Prop extends Facts₀ where

variable [Facts]
-- ==== Proof.KernelBody.lean ====
/-
  The frame of the program: its one kernel launch runs to the end on every TensorCore, nothing faults, and the
  nine argument arrays end as they began.

  The launch has twelve windows over a grid of 25 row tiles. Windows 0 and 1 both read the adjacency matrix (rows
  400·i … 400·i+199 and 400·i+200 … 400·i+399 at tile i), so that ONE array stands behind TWO windows: its full
  share is dealt as a left half to window 0 and a right half to window 1 (a read needs only a positive share).
  Windows 2–10 are the resident operands (the feature matrix, the two halves of the first weight matrix cut out by
  host slices, the second and third weight matrices, and the three bias rows and the slope row reshaped to one row
  by host reshapes), each the whole array at every tile. Window 11 is the output: tile i writes rows
  400·i … 400·i+399 of the [10000, 1] result, every tile written back.

  The body at a tile only reads its eleven input buffers and stores one [400, 1] block that covers the output
  buffer; so after the body every input buffer holds the block it held, and the output buffer holds the stored
  value, a pure function of the input blocks and of the tile's coordinate (the feature rows of the tile are read
  out of the resident feature matrix at row offset 400·i).
-/
import proofs.«160978_g85358180041300_cont_9to1c4b_830_32_alg».proof.Proof.Gen.Kernel.Launch
import proofs.«160978_g85358180041300_cont_9to1c4b_830_32_alg».proof.Proof.Gen.Kernel.Skeleton
import proofs.«160978_g85358180041300_cont_9to1c4b_830_32_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What each TensorCore buffer holds when the launch begins: the launch memory after the six host operations
    (two slices of the first weight matrix, four reshapes of the bias and slope vectors). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every tile, fetched there or not, whenever the body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every tile, fetched there or not, whenever the body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every tile, fetched there or not, whenever the body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every tile, fetched there or not, whenever the body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every tile, fetched there or not, whenever the body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every tile, fetched there or not, whenever the body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every tile, fetched there or not, whenever the body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every tile, fetched there or not, whenever the body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every tile, fetched there or not, whenever the body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every tile, fetched there or not, whenever the body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every tile, fetched there or not, whenever the body leaves
    the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through -/

abbrev rAdj : Rect S200x10000 := Rect.unit (s := S200x10000) ![0, 0] S200x10000.size inb_S200x10000_S200x10000_0_0
abbrev rX : Rect S10000x512 := Rect.unit (s := S10000x512) ![0, 0] S10000x512.size inb_S10000x512_S10000x512_0_0
/-- The tile's own 400 feature rows inside the resident feature matrix. -/
abbrev rXt (i : grid0.Coords) : Rect S10000x512 := Rect.unit (s := S10000x512) (k0_off1 i) S400x512.size (k0_off1_inb i)
abbrev rW : Rect S512x512 := Rect.unit (s := S512x512) ![0, 0] S512x512.size inb_S512x512_S512x512_0_0
abbrev rRow : Rect S1x512 := Rect.unit (s := S1x512) ![0, 0] S1x512.size inb_S1x512_S1x512_0_0
abbrev rCol : Rect S512x1 := Rect.unit (s := S512x1) ![0, 0] S512x1.size inb_S512x1_S512x1_0_0
abbrev rOne : Rect S1x1 := Rect.unit (s := S1x1) ![0, 0] S1x1.size inb_S1x1_S1x1_0_0
abbrev rOut : Rect S400x1 := Rect.unit (s := S400x1) ![0, 0] S400x1.size inb_S400x1_S400x1_0_0

/-! ## What the body leaves in the output buffer -/

/-- The pre-activation of the second layer, `z`, from the input blocks. -/
def zOf (i : grid0.Coords) (x0 x1 : Vec F S200x10000 .f32) (x2 : Vec F S10000x512 .f32) (x3 x4 : Vec F S512x512 .f32) (x5 : Vec F S1x512 .f32)
    (x6 : Vec F S512x512 .f32) (x7 : Vec F S1x512 .f32) : FVec F S400x512 .f32 :=
  k0_pay2 (View.ld x0 rAdj) (View.ld x2 rX) (View.ld x1 rAdj) (View.ld x2 rX) (View.ld x2 (rXt i)) (View.ld x3 rW) (View.ld x4 rW) (View.ld x5 rRow) (View.ld x6 rW) (View.ld x7 rRow)

/-- Its sign mask, `z ≥ 0`. -/
def maskOf (i : grid0.Coords) (x0 x1 : Vec F S200x10000 .f32) (x2 : Vec F S10000x512 .f32) (x3 x4 : Vec F S512x512 .f32) (x5 : Vec F S1x512 .f32)
    (x6 : Vec F S512x512 .f32) (x7 : Vec F S1x512 .f32) : IVec S400x512 1 :=
  k0_pay3 (View.ld x0 rAdj) (View.ld x2 rX) (View.ld x1 rAdj) (View.ld x2 rX) (View.ld x2 (rXt i)) (View.ld x3 rW) (View.ld x4 rW) (View.ld x5 rRow) (View.ld x6 rW) (View.ld x7 rRow)

/-- The output buffer after the body: its one store, the tile's 400 predictions. -/
def out0_11 (i : grid0.Coords) (x0 x1 : Vec F S200x10000 .f32) (x2 : Vec F S10000x512 .f32) (x3 x4 : Vec F S512x512 .f32) (x5 : Vec F S1x512 .f32)
    (x6 : Vec F S512x512 .f32) (x7 x8 : Vec F S1x512 .f32) (x9 : Vec F S512x1 .f32) (x10 : Vec F S1x1 .f32) : Vec F S400x1 .f32 :=
  View.canon [⟨rOut, k0_pay1 (zOf i x0 x1 x2 x3 x4 x5 x6 x7) (maskOf i x0 x1 x2 x3 x4 x5 x6 x7) (View.ld x8 rRow) (View.ld x9 rCol) (View.ld x10 rOne)⟩]

/-- The one store covers the output buffer. -/
theorem cover0_11 (p0 : Vec F S400x1 .f32) (y : S400x1.Idx) :
    ∃ pc ∈ ([⟨rOut, p0⟩] : List (View.Piece (Elt F) S400x1 .f32)), y ∈ pc.1.set :=
  View.cover_of_tiled [⟨rOut, p0⟩] S400x1.size (by rfl) y

/-! ## The body's triple -/

set_option maxHeartbeats 4000000 in
/-- The body on whole buffers, the eleven inputs' at given contents and the output's at anything, runs to the
    continuation holding the inputs' as they were and the output's at `out0_11` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole) (arg3 : Memref sig .tc .vmem S10000x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S400x1 .f32) (harg12 : arg12.IsWhole)
    (x0 : Vec F S200x10000 .f32) (x1 : Vec F S200x10000 .f32) (x2 : Vec F S10000x512 .f32) (x3 : Vec F S512x512 .f32) (x4 : Vec F S512x512 .f32) (x5 : Vec F S1x512 .f32) (x6 : Vec F S512x512 .f32) (x7 : Vec F S1x512 .f32) (x8 : Vec F S1x512 .f32) (x9 : Vec F S512x1 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 i x0 x1 x2 x3 x4 x5 x6 x7 x8 x9 x10)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

end Cert.Kernel.Gen

end
-- ==== Proof.KernelFrame.lean ====
/-
  The launch of the program's one kernel, and its frame: the proof data of the twelve windows (each input buffer
  left at its block, the output buffer at the body's stored value), the adjacency matrix's share dealt between
  the two windows that read it, the body obligation at every tile, the run, and the frame claim's post read off it.
-/
import proofs.«160978_g85358180041300_cont_9to1c4b_830_32_alg».proof.Proof.KernelBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's proof data -/

/-- On core `c`: the arrays as the launch finds them; after the body at tile `t` each input buffer at its block and
    the output buffer at `out0_11` of the input blocks; the invariant the core's scratch (there is none); nothing
    owed. The adjacency matrix is read by windows 0 and 1: window 0 holds the left half of its share, window 1 the
    right half; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) :
    (dats m 0 c).after 11 t = out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any tile: the input buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The launch's body obligation, at every tile. -/
theorem body_obligation (c : Dev nD) : BodyObligation (dats (F := F) m 0 c) (defs₀ (F := F)) Variants.none () Set.univ := fun t => by
  rw [bigSep_W0, bigSep_W0]
  exact sound_body m c t

/-! ## The adjacency matrix's share dealt between its two windows -/

/-- The eleven distinct buffers behind the twelve windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0) ∗ (((c : Thread nD τ).loc main_call0_v0) ↦{fullShare} V main_call0_v0) ∗ (((c : Thread nD τ).loc main_call0_v1) ↦{fullShare} V main_call0_v1) ∗ (((c : Thread nD τ).loc main_call0_v2) ↦{fullShare} V main_call0_v2) ∗ (((c : Thread nD τ).loc main_arg4) ↦{fullShare} V main_arg4) ∗ (((c : Thread nD τ).loc main_call0_v3) ↦{fullShare} V main_call0_v3) ∗ (((c : Thread nD τ).loc main_call0_v4) ↦{fullShare} V main_call0_v4) ∗ (((c : Thread nD τ).loc main_arg7) ↦{fullShare} V main_arg7) ∗ (((c : Thread nD τ).loc main_call0_v5) ↦{fullShare} V main_call0_v5) ∗ (((c : Thread nD τ).loc main_v0) ↦{fullShare} V main_v0)) := by
  unfold Pipeline.arrBufs
  exact bigSep_eq_bigSepL_of_eq [main_arg1, main_arg0, main_call0_v0, main_call0_v1, main_call0_v2, main_arg4, main_call0_v3, main_call0_v4, main_arg7, main_call0_v5, main_v0] (by decide) (by decide) _

/-- Window 0's array, a whole buffer, held at its share. -/
theorem arr_in_0 (c : Dev nD) :
    ((((c : Thread nD τ).loc main_arg1) ↦{fullShare.left} V m c main_arg1) : sProp 𝕄)
      ⊢ ((cfg0.win 0).arr.view.loc (c.tc : Thread nD τ) ↦[(cfg0.win 0).arr.view.set]{(dats m 0 c).share 0} (dats m 0 c).arrAt 0 0) := by
  rw [show (cfg0.win 0).arr.view.set = Finset.univ from (arr_whole0 0).set_eq_univ]
  exact .rfl
/-- Window 1's array, a whole buffer, held at its share. -/
theorem arr_in_1 (c : Dev nD) :
    ((((c : Thread nD τ).loc main_arg1) ↦{fullShare.right} V m c main_arg1) : sProp 𝕄)
      ⊢ ((cfg0.win 1).arr.view.loc (c.tc : Thread nD τ) ↦[(cfg0.win 1).arr.view.set]{(dats m 0 c).share 1} (dats m 0 c).arrAt 1 0) := by
  rw [show (cfg0.win 1).arr.view.set = Finset.univ from (arr_whole0 1).set_eq_univ]
  exact .rfl
/-- Window 2's array, a whole buffer, held at its share. -/
theorem arr_in_2 (c : Dev nD) :
    ((((c : Thread nD τ).loc main_arg0) ↦{fullShare} V m c main_arg0) : sProp 𝕄)
      ⊢ ((cfg0.win 2).arr.view.loc (c.tc : Thread nD τ) ↦[(cfg0.win 2).arr.view.set]{(dats m 0 c).share 2} (dats m 0 c).arrAt 2 0) := by
  rw [show (cfg0.win 2).arr.view.set = Finset.univ from (arr_whole0 2).set_eq_univ]
  exact .rfl
/-- Window 3's array, a whole buffer, held at its share. -/
theorem arr_in_3 (c : Dev nD) :
    ((((c : Thread nD τ).loc main_call0_v0) ↦{fullShare} V m c main_call0_v0) : sProp 𝕄)
      ⊢ ((cfg0.win 3).arr.view.loc (c.tc : Thread nD τ) ↦[(cfg0.win 3).arr.view.set]{(dats m 0 c).share 3} (dats m 0 c).arrAt 3 0) := by
  rw [show (cfg0.win 3).arr.view.set = Finset.univ from (arr_whole0 3).set_eq_univ]
  exact .rfl
/-- Window 4's array, a whole buffer, held at its share. -/
theorem arr_in_4 (c : Dev nD) :
    ((((c : Thread nD τ).loc main_call0_v1) ↦{fullShare} V m c main_call0_v1) : sProp 𝕄)
      ⊢ ((cfg0.win 4).arr.view.loc (c.tc : Thread nD τ) ↦[(cfg0.win 4).arr.view.set]{(dats m 0 c).share 4} (dats m 0 c).arrAt 4 0) := by
  rw [show (cfg0.win 4).arr.view.set = Finset.univ from (arr_whole0 4).set_eq_univ]
  exact .rfl
/-- Window 5's array, a whole buffer, held at its share. -/
theorem arr_in_5 (c : Dev nD) :
    ((((c : Thread nD τ).loc main_call0_v2) ↦{fullShare} V m c main_call0_v2) : sProp 𝕄)
      ⊢ ((cfg0.win 5).arr.view.loc (c.tc : Thread nD τ) ↦[(cfg0.win 5).arr.view.set]{(dats m 0 c).share 5} (dats m 0 c).arrAt 5 0) := by
  rw [show (cfg0.win 5).arr.view.set = Finset.univ from (arr_whole0 5).set_eq_univ]
  exact .rfl
/-- Window 6's array, a whole buffer, held at its share. -/
theorem arr_in_6 (c : Dev nD) :
    ((((c : Thread nD τ).loc main_arg4) ↦{fullShare} V m c main_arg4) : sProp 𝕄)
      ⊢ ((cfg0.win 6).arr.view.loc (c.tc : Thread nD τ) ↦[(cfg0.win 6).arr.view.set]{(dats m 0 c).share 6} (dats m 0 c).arrAt 6 0) := by
  rw [show (cfg0.win 6).arr.view.set = Finset.univ from (arr_whole0 6).set_eq_univ]
  exact .rfl
/-- Window 7's array, a whole buffer, held at its share. -/
theorem arr_in_7 (c : Dev nD) :
    ((((c : Thread nD τ).loc main_call0_v3) ↦{fullShare} V m c main_call0_v3) : sProp 𝕄)
      ⊢ ((cfg0.win 7).arr.view.loc (c.tc : Thread nD τ) ↦[(cfg0.win 7).arr.view.set]{(dats m 0 c).share 7} (dats m 0 c).arrAt 7 0) := by
  rw [show (cfg0.win 7).arr.view.set = Finset.univ from (arr_whole0 7).set_eq_univ]
  exact .rfl
/-- Window 8's array, a whole buffer, held at its share. -/
theorem arr_in_8 (c : Dev nD) :
    ((((c : Thread nD τ).loc main_call0_v4) ↦{fullShare} V m c main_call0_v4) : sProp 𝕄)
      ⊢ ((cfg0.win 8).arr.view.loc (c.tc : Thread nD τ) ↦[(cfg0.win 8).arr.view.set]{(dats m 0 c).share 8} (dats m 0 c).arrAt 8 0) := by
  rw [show (cfg0.win 8).arr.view.set = Finset.univ from (arr_whole0 8).set_eq_univ]
  exact .rfl
/-- Window 9's array, a whole buffer, held at its share. -/
theorem arr_in_9 (c : Dev nD) :
    ((((c : Thread nD τ).loc main_arg7) ↦{fullShare} V m c main_arg7) : sProp 𝕄)
      ⊢ ((cfg0.win 9).arr.view.loc (c.tc : Thread nD τ) ↦[(cfg0.win 9).arr.view.set]{(dats m 0 c).share 9} (dats m 0 c).arrAt 9 0) := by
  rw [show (cfg0.win 9).arr.view.set = Finset.univ from (arr_whole0 9).set_eq_univ]
  exact .rfl
/-- Window 10's array, a whole buffer, held at its share. -/
theorem arr_in_10 (c : Dev nD) :
    ((((c : Thread nD τ).loc main_call0_v5) ↦{fullShare} V m c main_call0_v5) : sProp 𝕄)
      ⊢ ((cfg0.win 10).arr.view.loc (c.tc : Thread nD τ) ↦[(cfg0.win 10).arr.view.set]{(dats m 0 c).share 10} (dats m 0 c).arrAt 10 0) := by
  rw [show (cfg0.win 10).arr.view.set = Finset.univ from (arr_whole0 10).set_eq_univ]
  exact .rfl
/-- Window 11's array, a whole buffer, held at its share. -/
theorem arr_in_11 (c : Dev nD) :
    ((((c : Thread nD τ).loc main_v0) ↦{fullShare} V m c main_v0) : sProp 𝕄)
      ⊢ ((cfg0.win 11).arr.view.loc (c.tc : Thread nD τ) ↦[(cfg0.win 11).arr.view.set]{(dats m 0 c).share 11} (dats m 0 c).arrAt 11 0) := by
  rw [show (cfg0.win 11).arr.view.set = Finset.univ from (arr_whole0 11).set_eq_univ]
  exact .rfl

/-- Those buffers, each whole at the full share, give every window its array at its share: the adjacency matrix's
    full share splits into the left half for window 0 and the right half for window 1. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  have hsp : ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  iintro ⟨Hadj, Hx, Hw1a, Hw1b, Hb1, Hw2, Hb2, Hpa, Hw3, Hb3, Hout⟩
  ihave Hsp := hsp $$ Hadj
  icases Hsp with ⟨HadjL, HadjR⟩
  isplitl [HadjL]
  · iapply (arr_in_0 m c); iexact HadjL
  isplitl [HadjR]
  · iapply (arr_in_1 m c); iexact HadjR
  isplitl [Hx]
  · iapply (arr_in_2 m c); iexact Hx
  isplitl [Hw1a]
  · iapply (arr_in_3 m c); iexact Hw1a
  isplitl [Hw1b]
  · iapply (arr_in_4 m c); iexact Hw1b
  isplitl [Hb1]
  · iapply (arr_in_5 m c); iexact Hb1
  isplitl [Hw2]
  · iapply (arr_in_6 m c); iexact Hw2
  isplitl [Hb2]
  · iapply (arr_in_7 m c); iexact Hb2
  isplitl [Hpa]
  · iapply (arr_in_8 m c); iexact Hpa
  isplitl [Hw3]
  · iapply (arr_in_9 m c); iexact Hw3
  isplitl [Hb3]
  · iapply (arr_in_10 m c); iexact Hb3
  iapply (arr_in_11 m c); iexact Hout

/-! ## The run and the frame -/

set_option backward.isDefEq.respectTransparency.types false in
/-- From any memory with zero counters every weakly fair execution of the program on the TensorCores terminates,
    and in every final state each window's array holds what the write-backs leave of the proof data and every other
    unscoped buffer what the launch found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => (show iprop(emp ∗ (Pipeline.scopedRest (Ix := Unit) (Name := ℕ) (U := UR sig nD τ) (Lvl := ℕ) (Val := Elt F) spec0 c : sProp 𝕄)) ⊢ (Pipeline.scopedRest (Ix := Unit) (Name := ℕ) (U := UR sig nD τ) (Lvl := ℕ) (Val := Elt F) spec0 c : sProp 𝕄) from by
      iintro ⟨-, H⟩
      iexact H))
    (hout := fun c => (show (Pipeline.scopedRest (Ix := Unit) (Name := ℕ) (U := UR sig nD τ) (Lvl := ℕ) (Val := Elt F) spec0 c : sProp 𝕄) ⊢ iprop(emp ∗ (Pipeline.scopedRest (Ix := Unit) (Name := ℕ) (U := UR sig nD τ) (Lvl := ℕ) (Val := Elt F) spec0 c : sProp 𝕄)) from by
      iintro H
      isplitr
      · iempintro
      · iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Gen.run_main' depends on axioms: [propext, Classical.choice, Quot.sound] -/
#guard_msgs in #print axioms run_main

/-- The frame: the program terminates without a fault and its nine argument arrays end unchanged — the four that
    windows read (an input window's array is never written), and the five no window reads (they bypass the launch). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 9).trans (((dats m 0 c).arrAt_in 9 rfl _).trans ((A_eq m c 9).trans (V_main_arg7 m c))),
      ((h c).2 main_arg8 (Pipeline.mem_restRefs_of main_arg8 (by decide) (by decide))).trans (V_main_arg8 m c)⟩) (run_main m ρ)

end Cert.Kernel.Gen

end
-- ==== Proof.KernelIdealBody.lean ====
/-
  The frame of the program: its one kernel launch runs to the end on every TensorCore, nothing faults, and the
  nine argument arrays end as they began.

  The launch has twelve windows over a grid of 25 row tiles. Windows 0 and 1 both read the adjacency matrix (rows
  400·i … 400·i+199 and 400·i+200 … 400·i+399 at tile i), so that ONE array stands behind TWO windows: its full
  share is dealt as a left half to window 0 and a right half to window 1 (a read needs only a positive share).
  Windows 2–10 are the resident operands (the feature matrix, the two halves of the first weight matrix cut out by
  host slices, the second and third weight matrices, and the three bias rows and the slope row reshaped to one row
  by host reshapes), each the whole array at every tile. Window 11 is the output: tile i writes rows
  400·i … 400·i+399 of the [10000, 1] result, every tile written back.

  The body at a tile only reads its eleven input buffers and stores one [400, 1] block that covers the output
  buffer; so after the body every input buffer holds the block it held, and the output buffer holds the stored
  value, a pure function of the input blocks and of the tile's coordinate (the feature rows of the tile are read
  out of the resident feature matrix at row offset 400·i).
-/
import proofs.«160978_g85358180041300_cont_9to1c4b_830_32_alg».proof.Proof.Gen.KernelIdeal.Launch
import proofs.«160978_g85358180041300_cont_9to1c4b_830_32_alg».proof.Proof.Gen.KernelIdeal.Skeleton
import proofs.«160978_g85358180041300_cont_9to1c4b_830_32_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What each TensorCore buffer holds when the launch begins: the launch memory after the six host operations
    (two slices of the first weight matrix, four reshapes of the bias and slope vectors). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every tile, fetched there or not, whenever the body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every tile, fetched there or not, whenever the body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every tile, fetched there or not, whenever the body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every tile, fetched there or not, whenever the body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every tile, fetched there or not, whenever the body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every tile, fetched there or not, whenever the body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every tile, fetched there or not, whenever the body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every tile, fetched there or not, whenever the body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every tile, fetched there or not, whenever the body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every tile, fetched there or not, whenever the body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every tile, fetched there or not, whenever the body leaves
    the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through -/

abbrev rAdj : Rect S200x10000 := Rect.unit (s := S200x10000) ![0, 0] S200x10000.size inb_S200x10000_S200x10000_0_0
abbrev rX : Rect S10000x512 := Rect.unit (s := S10000x512) ![0, 0] S10000x512.size inb_S10000x512_S10000x512_0_0
/-- The tile's own 400 feature rows inside the resident feature matrix. -/
abbrev rXt (i : grid0.Coords) : Rect S10000x512 := Rect.unit (s := S10000x512) (k0_off1 i) S400x512.size (k0_off1_inb i)
abbrev rW : Rect S512x512 := Rect.unit (s := S512x512) ![0, 0] S512x512.size inb_S512x512_S512x512_0_0
abbrev rRow : Rect S1x512 := Rect.unit (s := S1x512) ![0, 0] S1x512.size inb_S1x512_S1x512_0_0
abbrev rCol : Rect S512x1 := Rect.unit (s := S512x1) ![0, 0] S512x1.size inb_S512x1_S512x1_0_0
abbrev rOne : Rect S1x1 := Rect.unit (s := S1x1) ![0, 0] S1x1.size inb_S1x1_S1x1_0_0
abbrev rOut : Rect S400x1 := Rect.unit (s := S400x1) ![0, 0] S400x1.size inb_S400x1_S400x1_0_0

/-! ## What the body leaves in the output buffer -/

/-- The pre-activation of the second layer, `z`, from the input blocks. -/
def zOf (i : grid0.Coords) (x0 x1 : Vec F S200x10000 .f32) (x2 : Vec F S10000x512 .f32) (x3 x4 : Vec F S512x512 .f32) (x5 : Vec F S1x512 .f32)
    (x6 : Vec F S512x512 .f32) (x7 : Vec F S1x512 .f32) : FVec F S400x512 .f32 :=
  k0_pay2 (View.ld x0 rAdj) (View.ld x2 rX) (View.ld x1 rAdj) (View.ld x2 rX) (View.ld x2 (rXt i)) (View.ld x3 rW) (View.ld x4 rW) (View.ld x5 rRow) (View.ld x6 rW) (View.ld x7 rRow)

/-- Its sign mask, `z ≥ 0`. -/
def maskOf (i : grid0.Coords) (x0 x1 : Vec F S200x10000 .f32) (x2 : Vec F S10000x512 .f32) (x3 x4 : Vec F S512x512 .f32) (x5 : Vec F S1x512 .f32)
    (x6 : Vec F S512x512 .f32) (x7 : Vec F S1x512 .f32) : IVec S400x512 1 :=
  k0_pay3 (View.ld x0 rAdj) (View.ld x2 rX) (View.ld x1 rAdj) (View.ld x2 rX) (View.ld x2 (rXt i)) (View.ld x3 rW) (View.ld x4 rW) (View.ld x5 rRow) (View.ld x6 rW) (View.ld x7 rRow)

/-- The output buffer after the body: its one store, the tile's 400 predictions. -/
def out0_11 (i : grid0.Coords) (x0 x1 : Vec F S200x10000 .f32) (x2 : Vec F S10000x512 .f32) (x3 x4 : Vec F S512x512 .f32) (x5 : Vec F S1x512 .f32)
    (x6 : Vec F S512x512 .f32) (x7 x8 : Vec F S1x512 .f32) (x9 : Vec F S512x1 .f32) (x10 : Vec F S1x1 .f32) : Vec F S400x1 .f32 :=
  View.canon [⟨rOut, k0_pay1 (zOf i x0 x1 x2 x3 x4 x5 x6 x7) (maskOf i x0 x1 x2 x3 x4 x5 x6 x7) (View.ld x8 rRow) (View.ld x9 rCol) (View.ld x10 rOne)⟩]

/-- The one store covers the output buffer. -/
theorem cover0_11 (p0 : Vec F S400x1 .f32) (y : S400x1.Idx) :
    ∃ pc ∈ ([⟨rOut, p0⟩] : List (View.Piece (Elt F) S400x1 .f32)), y ∈ pc.1.set :=
  View.cover_of_tiled [⟨rOut, p0⟩] S400x1.size (by rfl) y

/-! ## The body's triple -/

set_option maxHeartbeats 4000000 in
/-- The body on whole buffers, the eleven inputs' at given contents and the output's at anything, runs to the
    continuation holding the inputs' as they were and the output's at `out0_11` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole) (arg3 : Memref sig .tc .vmem S10000x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S400x1 .f32) (harg12 : arg12.IsWhole)
    (x0 : Vec F S200x10000 .f32) (x1 : Vec F S200x10000 .f32) (x2 : Vec F S10000x512 .f32) (x3 : Vec F S512x512 .f32) (x4 : Vec F S512x512 .f32) (x5 : Vec F S1x512 .f32) (x6 : Vec F S512x512 .f32) (x7 : Vec F S1x512 .f32) (x8 : Vec F S1x512 .f32) (x9 : Vec F S512x1 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 i x0 x1 x2 x3 x4 x5 x6 x7 x8 x9 x10)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

end Cert.KernelIdeal.Gen

end
-- ==== Proof.KernelIdealFrame.lean ====
/-
  The launch of the program's one kernel, and its frame: the proof data of the twelve windows (each input buffer
  left at its block, the output buffer at the body's stored value), the adjacency matrix's share dealt between
  the two windows that read it, the body obligation at every tile, the run, and the frame claim's post read off it.
-/
import proofs.«160978_g85358180041300_cont_9to1c4b_830_32_alg».proof.Proof.KernelIdealBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's proof data -/

/-- On core `c`: the arrays as the launch finds them; after the body at tile `t` each input buffer at its block and
    the output buffer at `out0_11` of the input blocks; the invariant the core's scratch (there is none); nothing
    owed. The adjacency matrix is read by windows 0 and 1: window 0 holds the left half of its share, window 1 the
    right half; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) :
    (dats m 0 c).after 11 t = out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any tile: the input buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The launch's body obligation, at every tile. -/
theorem body_obligation (c : Dev nD) : BodyObligation (dats (F := F) m 0 c) (defs₀ (F := F)) Variants.none () Set.univ := fun t => by
  rw [bigSep_W0, bigSep_W0]
  exact sound_body m c t

/-! ## The adjacency matrix's share dealt between its two windows -/

/-- The eleven distinct buffers behind the twelve windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0) ∗ (((c : Thread nD τ).loc main_call0_v0) ↦{fullShare} V main_call0_v0) ∗ (((c : Thread nD τ).loc main_call0_v1) ↦{fullShare} V main_call0_v1) ∗ (((c : Thread nD τ).loc main_call0_v2) ↦{fullShare} V main_call0_v2) ∗ (((c : Thread nD τ).loc main_arg4) ↦{fullShare} V main_arg4) ∗ (((c : Thread nD τ).loc main_call0_v3) ↦{fullShare} V main_call0_v3) ∗ (((c : Thread nD τ).loc main_call0_v4) ↦{fullShare} V main_call0_v4) ∗ (((c : Thread nD τ).loc main_arg7) ↦{fullShare} V main_arg7) ∗ (((c : Thread nD τ).loc main_call0_v5) ↦{fullShare} V main_call0_v5) ∗ (((c : Thread nD τ).loc main_v0) ↦{fullShare} V main_v0)) := by
  unfold Pipeline.arrBufs
  exact bigSep_eq_bigSepL_of_eq [main_arg1, main_arg0, main_call0_v0, main_call0_v1, main_call0_v2, main_arg4, main_call0_v3, main_call0_v4, main_arg7, main_call0_v5, main_v0] (by decide) (by decide) _

/-- Window 0's array, a whole buffer, held at its share. -/
theorem arr_in_0 (c : Dev nD) :
    ((((c : Thread nD τ).loc main_arg1) ↦{fullShare.left} V m c main_arg1) : sProp 𝕄)
      ⊢ ((cfg0.win 0).arr.view.loc (c.tc : Thread nD τ) ↦[(cfg0.win 0).arr.view.set]{(dats m 0 c).share 0} (dats m 0 c).arrAt 0 0) := by
  rw [show (cfg0.win 0).arr.view.set = Finset.univ from (arr_whole0 0).set_eq_univ]
  exact .rfl
/-- Window 1's array, a whole buffer, held at its share. -/
theorem arr_in_1 (c : Dev nD) :
    ((((c : Thread nD τ).loc main_arg1) ↦{fullShare.right} V m c main_arg1) : sProp 𝕄)
      ⊢ ((cfg0.win 1).arr.view.loc (c.tc : Thread nD τ) ↦[(cfg0.win 1).arr.view.set]{(dats m 0 c).share 1} (dats m 0 c).arrAt 1 0) := by
  rw [show (cfg0.win 1).arr.view.set = Finset.univ from (arr_whole0 1).set_eq_univ]
  exact .rfl
/-- Window 2's array, a whole buffer, held at its share. -/
theorem arr_in_2 (c : Dev nD) :
    ((((c : Thread nD τ).loc main_arg0) ↦{fullShare} V m c main_arg0) : sProp 𝕄)
      ⊢ ((cfg0.win 2).arr.view.loc (c.tc : Thread nD τ) ↦[(cfg0.win 2).arr.view.set]{(dats m 0 c).share 2} (dats m 0 c).arrAt 2 0) := by
  rw [show (cfg0.win 2).arr.view.set = Finset.univ from (arr_whole0 2).set_eq_univ]
  exact .rfl
/-- Window 3's array, a whole buffer, held at its share. -/
theorem arr_in_3 (c : Dev nD) :
    ((((c : Thread nD τ).loc main_call0_v0) ↦{fullShare} V m c main_call0_v0) : sProp 𝕄)
      ⊢ ((cfg0.win 3).arr.view.loc (c.tc : Thread nD τ) ↦[(cfg0.win 3).arr.view.set]{(dats m 0 c).share 3} (dats m 0 c).arrAt 3 0) := by
  rw [show (cfg0.win 3).arr.view.set = Finset.univ from (arr_whole0 3).set_eq_univ]
  exact .rfl
/-- Window 4's array, a whole buffer, held at its share. -/
theorem arr_in_4 (c : Dev nD) :
    ((((c : Thread nD τ).loc main_call0_v1) ↦{fullShare} V m c main_call0_v1) : sProp 𝕄)
      ⊢ ((cfg0.win 4).arr.view.loc (c.tc : Thread nD τ) ↦[(cfg0.win 4).arr.view.set]{(dats m 0 c).share 4} (dats m 0 c).arrAt 4 0) := by
  rw [show (cfg0.win 4).arr.view.set = Finset.univ from (arr_whole0 4).set_eq_univ]
  exact .rfl
/-- Window 5's array, a whole buffer, held at its share. -/
theorem arr_in_5 (c : Dev nD) :
    ((((c : Thread nD τ).loc main_call0_v2) ↦{fullShare} V m c main_call0_v2) : sProp 𝕄)
      ⊢ ((cfg0.win 5).arr.view.loc (c.tc : Thread nD τ) ↦[(cfg0.win 5).arr.view.set]{(dats m 0 c).share 5} (dats m 0 c).arrAt 5 0) := by
  rw [show (cfg0.win 5).arr.view.set = Finset.univ from (arr_whole0 5).set_eq_univ]
  exact .rfl
/-- Window 6's array, a whole buffer, held at its share. -/
theorem arr_in_6 (c : Dev nD) :
    ((((c : Thread nD τ).loc main_arg4) ↦{fullShare} V m c main_arg4) : sProp 𝕄)
      ⊢ ((cfg0.win 6).arr.view.loc (c.tc : Thread nD τ) ↦[(cfg0.win 6).arr.view.set]{(dats m 0 c).share 6} (dats m 0 c).arrAt 6 0) := by
  rw [show (cfg0.win 6).arr.view.set = Finset.univ from (arr_whole0 6).set_eq_univ]
  exact .rfl
/-- Window 7's array, a whole buffer, held at its share. -/
theorem arr_in_7 (c : Dev nD) :
    ((((c : Thread nD τ).loc main_call0_v3) ↦{fullShare} V m c main_call0_v3) : sProp 𝕄)
      ⊢ ((cfg0.win 7).arr.view.loc (c.tc : Thread nD τ) ↦[(cfg0.win 7).arr.view.set]{(dats m 0 c).share 7} (dats m 0 c).arrAt 7 0) := by
  rw [show (cfg0.win 7).arr.view.set = Finset.univ from (arr_whole0 7).set_eq_univ]
  exact .rfl
/-- Window 8's array, a whole buffer, held at its share. -/
theorem arr_in_8 (c : Dev nD) :
    ((((c : Thread nD τ).loc main_call0_v4) ↦{fullShare} V m c main_call0_v4) : sProp 𝕄)
      ⊢ ((cfg0.win 8).arr.view.loc (c.tc : Thread nD τ) ↦[(cfg0.win 8).arr.view.set]{(dats m 0 c).share 8} (dats m 0 c).arrAt 8 0) := by
  rw [show (cfg0.win 8).arr.view.set = Finset.univ from (arr_whole0 8).set_eq_univ]
  exact .rfl
/-- Window 9's array, a whole buffer, held at its share. -/
theorem arr_in_9 (c : Dev nD) :
    ((((c : Thread nD τ).loc main_arg7) ↦{fullShare} V m c main_arg7) : sProp 𝕄)
      ⊢ ((cfg0.win 9).arr.view.loc (c.tc : Thread nD τ) ↦[(cfg0.win 9).arr.view.set]{(dats m 0 c).share 9} (dats m 0 c).arrAt 9 0) := by
  rw [show (cfg0.win 9).arr.view.set = Finset.univ from (arr_whole0 9).set_eq_univ]
  exact .rfl
/-- Window 10's array, a whole buffer, held at its share. -/
theorem arr_in_10 (c : Dev nD) :
    ((((c : Thread nD τ).loc main_call0_v5) ↦{fullShare} V m c main_call0_v5) : sProp 𝕄)
      ⊢ ((cfg0.win 10).arr.view.loc (c.tc : Thread nD τ) ↦[(cfg0.win 10).arr.view.set]{(dats m 0 c).share 10} (dats m 0 c).arrAt 10 0) := by
  rw [show (cfg0.win 10).arr.view.set = Finset.univ from (arr_whole0 10).set_eq_univ]
  exact .rfl
/-- Window 11's array, a whole buffer, held at its share. -/
theorem arr_in_11 (c : Dev nD) :
    ((((c : Thread nD τ).loc main_v0) ↦{fullShare} V m c main_v0) : sProp 𝕄)
      ⊢ ((cfg0.win 11).arr.view.loc (c.tc : Thread nD τ) ↦[(cfg0.win 11).arr.view.set]{(dats m 0 c).share 11} (dats m 0 c).arrAt 11 0) := by
  rw [show (cfg0.win 11).arr.view.set = Finset.univ from (arr_whole0 11).set_eq_univ]
  exact .rfl

/-- Those buffers, each whole at the full share, give every window its array at its share: the adjacency matrix's
    full share splits into the left half for window 0 and the right half for window 1. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  have hsp : ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  iintro ⟨Hadj, Hx, Hw1a, Hw1b, Hb1, Hw2, Hb2, Hpa, Hw3, Hb3, Hout⟩
  ihave Hsp := hsp $$ Hadj
  icases Hsp with ⟨HadjL, HadjR⟩
  isplitl [HadjL]
  · iapply (arr_in_0 m c); iexact HadjL
  isplitl [HadjR]
  · iapply (arr_in_1 m c); iexact HadjR
  isplitl [Hx]
  · iapply (arr_in_2 m c); iexact Hx
  isplitl [Hw1a]
  · iapply (arr_in_3 m c); iexact Hw1a
  isplitl [Hw1b]
  · iapply (arr_in_4 m c); iexact Hw1b
  isplitl [Hb1]
  · iapply (arr_in_5 m c); iexact Hb1
  isplitl [Hw2]
  · iapply (arr_in_6 m c); iexact Hw2
  isplitl [Hb2]
  · iapply (arr_in_7 m c); iexact Hb2
  isplitl [Hpa]
  · iapply (arr_in_8 m c); iexact Hpa
  isplitl [Hw3]
  · iapply (arr_in_9 m c); iexact Hw3
  isplitl [Hb3]
  · iapply (arr_in_10 m c); iexact Hb3
  iapply (arr_in_11 m c); iexact Hout

/-! ## The run and the frame -/

set_option backward.isDefEq.respectTransparency.types false in
/-- From any memory with zero counters every weakly fair execution of the program on the TensorCores terminates,
    and in every final state each window's array holds what the write-backs leave of the proof data and every other
    unscoped buffer what the launch found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => (show iprop(emp ∗ (Pipeline.scopedRest (Ix := Unit) (Name := ℕ) (U := UR sig nD τ) (Lvl := ℕ) (Val := Elt F) spec0 c : sProp 𝕄)) ⊢ (Pipeline.scopedRest (Ix := Unit) (Name := ℕ) (U := UR sig nD τ) (Lvl := ℕ) (Val := Elt F) spec0 c : sProp 𝕄) from by
      iintro ⟨-, H⟩
      iexact H))
    (hout := fun c => (show (Pipeline.scopedRest (Ix := Unit) (Name := ℕ) (U := UR sig nD τ) (Lvl := ℕ) (Val := Elt F) spec0 c : sProp 𝕄) ⊢ iprop(emp ∗ (Pipeline.scopedRest (Ix := Unit) (Name := ℕ) (U := UR sig nD τ) (Lvl := ℕ) (Val := Elt F) spec0 c : sProp 𝕄)) from by
      iintro H
      isplitr
      · iempintro
      · iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Gen.run_main' depends on axioms: [propext, Classical.choice, Quot.sound] -/
#guard_msgs in #print axioms run_main

/-- The frame: the program terminates without a fault and its nine argument arrays end unchanged — the four that
    windows read (an input window's array is never written), and the five no window reads (they bypass the launch). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 9).trans (((dats m 0 c).arrAt_in 9 rfl _).trans ((A_eq m c 9).trans (V_main_arg7 m c))),
      ((h c).2 main_arg8 (Pipeline.mem_restRefs_of main_arg8 (by decide) (by decide))).trans (V_main_arg8 m c)⟩) (run_main m ρ)

end Cert.KernelIdeal.Gen

end
-- ==== Proof.Spec.lean ====
/-
  The function both programs compute, index by index over the extended reals.

  With x : [10000, 512] the node features, adj : [10000, 10000] the dense adjacency matrix, W1 : [1024, 512],
  b1 : [512], W2 : [512, 512], b2 : [512], a : [512] (the PReLU slopes), W3 : [512, 1], b3 : [1]:

    agg  r c = ∑ n, adj r n · x n c                                  (aggregation over all nodes)
    lin1 r j = (∑ c, x r c · W1 c j  +  ∑ c, agg r c · W1 (512 + c) j) + b1 j
    hid  r j = max (lin1 r j) 0                                       (ReLU)
    lin2 r k = ∑ j, hid r j · W2 j k + b2 k
    act  r k = lin2 r k  if lin2 r k ≥ 0,  else a k · lin2 r k        (PReLU)
    out  r   = ∑ k, act r k · W3 k 0 + b3 0

  The one law used between the two programs: a sum over 1024 indices is the sum over the first 512 plus the sum
  over the last 512 (`sum_halves`) — the reference multiplies the concatenation [x, agg] by W1 in one sum, the
  kernel multiplies x by the upper half of W1 and agg by the lower half and adds. It holds in any additive
  commutative monoid, the extended reals included, so no finiteness is needed anywhere.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal

/-- The f32 zero word, as both programs write it. -/
abbrev zero : EReal := Ideal.ofBits .f32 0x00000000#32

/-- Row `c` of the upper half of a [1024, ·] matrix. -/
abbrev lo (c : Fin 512) : Fin 1024 := ⟨c.val, by omega⟩
/-- Row `512 + c`: the lower half. -/
abbrev hi (c : Fin 512) : Fin 1024 := ⟨512 + c.val, by omega⟩

/-- A sum over 1024 indices is the sum over the first 512 plus the sum over the last 512. -/
theorem sum_halves (f : Fin 1024 → EReal) : ∑ k : Fin 1024, f k = ∑ c : Fin 512, f (lo c) + ∑ c : Fin 512, f (hi c) :=
  Fin.sum_univ_add (a := 512) (b := 512) f

section
variable (x : Arr2 10000 512) (adj : Arr2 10000 10000) (W1 : Arr2 1024 512) (b1 : Arr1 512) (W2 : Arr2 512 512) (b2 : Arr1 512)
  (a : Arr1 512) (W3 : Arr2 512 1) (b3 : Arr1 1)

/-- The aggregated features: row `r` of adj times column `c` of x. -/
def agg (r : Fin 10000) (c : Fin 512) : EReal := ∑ n : Fin 10000, adj (ix2 r n) * x (ix2 n c)

/-- The first layer before its activation. -/
def lin1 (r : Fin 10000) (j : Fin 512) : EReal :=
  (∑ c : Fin 512, x (ix2 r c) * W1 (ix2 (lo c) j) + ∑ c : Fin 512, agg x adj r c * W1 (ix2 (hi c) j)) + b1 (ix1 j)

/-- The first layer: ReLU. -/
def hid (r : Fin 10000) (j : Fin 512) : EReal := max (lin1 x adj W1 b1 r j) zero

/-- The second layer before its activation. -/
def lin2 (r : Fin 10000) (k : Fin 512) : EReal := ∑ j : Fin 512, hid x adj W1 b1 r j * W2 (ix2 j k) + b2 (ix1 k)

/-- The second layer: PReLU with slope `a k`. -/
def act (r : Fin 10000) (k : Fin 512) : EReal :=
  Scalar.select (Ideal.cmp .oge (lin2 x adj W1 b1 W2 b2 r k) zero) (lin2 x adj W1 b1 W2 b2 r k) (a (ix1 k) * lin2 x adj W1 b1 W2 b2 r k)

/-- The prediction of node `r`. -/
def out (r : Fin 10000) : EReal := ∑ k : Fin 512, act x adj W1 b1 W2 b2 a r k * W3 (ix2 k (0 : Fin 1)) + b3 (ix1 (0 : Fin 1))

/-- The result array, [10000, 1]. -/
def G : Arr2 10000 1 := fun i => out x adj W1 b1 W2 b2 a W3 b3 (i 0)

end

end Cert.GcnSpec

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.KernelIdealTile.lean ====
/-
  What one tile's store holds, read at a row: the specification's prediction of that row.

  At tile i the body multiplies the tile's two adjacency blocks (rows 400·i + q and 400·i + 200 + q, q < 200) by
  the feature matrix and stacks the two [200, 512] products into the tile's aggregation; reads the tile's own 400
  feature rows out of the feature matrix at row offset 400·i; multiplies those by the upper half of W1 and the
  aggregation by the lower half and adds the two products and the bias row; takes the maximum with zero; multiplies
  by W2 and adds its bias row; selects, by the comparison with zero, between that value and its product with the
  slope row; multiplies by W3 and adds its bias. Each matrix product into a zero accumulator is, at an output index,
  the sum over the contracted coordinate; each bias row is broadcast along the rows; the stack of two pieces at row
  p is the first piece at p for p < 200 and the second at p - 200 otherwise. So under the hypotheses that name
  what each block holds of the argument arrays, the stored value at row p is `GcnSpec.out` at row 400·i + p.
-/
import proofs.«160978_g85358180041300_cont_9to1c4b_830_32_alg».proof.Proof.KernelIdealBody
import proofs.«160978_g85358180041300_cont_9to1c4b_830_32_alg».proof.Proof.Spec
import proofs.«160978_g85358180041300_cont_9to1c4b_830_32_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Tile

open Cert.KernelIdeal Cert.KernelIdeal.Gen Idealize.ShloMosaic Idealize.ShloMosaic.ValueIdx Cert.GcnSpec Cert.LibPlainDot

/-! ## The products' dimension numbers are plain, and a plain product into zero at an index -/

theorem plain1 : IsPlain dot_S200x10000_S10000x512_S200x512_1_0_0_1_n_n := ⟨rfl, rfl, rfl, rfl, rfl, rfl⟩
theorem plain2 : IsPlain dot_S400x512_S512x512_S400x512_1_0_0_1_n_n := ⟨rfl, rfl, rfl, rfl, rfl, rfl⟩
theorem plain3 : IsPlain dot_S400x512_S512x1_S400x1_1_0_0_1_n_n := ⟨rfl, rfl, rfl, rfl, rfl, rfl⟩

/-- A plain [n, K] × [K, M] product accumulated into zero, at (a, b): the sum over k of left (a, k) · right (k, b). -/
theorem mm_at {n K M : Nat} (d : DotDims ⟨2, ![n, K]⟩ ⟨2, ![K, M]⟩ ⟨2, ![n, M]⟩) (hd : IsPlain d)
    (l : FVec Ideal ⟨2, ![n, K]⟩ .f32) (r : FVec Ideal ⟨2, ![K, M]⟩ .f32) (a : Fin n) (b : Fin M) :
    matmul (φ₁ := .f32) (φ₂ := .f32) d none l r (constant (F := Ideal) ⟨2, ![n, M]⟩ .f32 0x00000000#32) (ix2 a b) = ∑ k : Fin K, l (ix2 a k) * r (ix2 k b) := by
  show FloatOps.matmul (φ₁ := .f32) (φ₂ := .f32) d none l r (constant (F := Ideal) ⟨2, ![n, M]⟩ .f32 0x00000000#32) (ix2 a b) = _
  rw [Ideal.matmul_constant_zero_apply]
  exact sum_contr d hd (fun u v => l u * r v) (ix2 a b)

/-! ## The body's value, stage by stage, as vectors -/

/-- The tile's aggregation: the two adjacency blocks times the feature matrix, stacked. -/
def aggV (v0 : Vec Ideal S200x10000 .f32) (v1 : Vec Ideal S10000x512 .f32) (v3 : Vec Ideal S200x10000 .f32) (v4 : Vec Ideal S10000x512 .f32) : FVec Ideal S400x512 .f32 :=
  concatenate S400x512 0 [⟨S200x512, matmul (φ₁ := .f32) (φ₂ := .f32) dot_S200x10000_S10000x512_S200x512_1_0_0_1_n_n none v0 v1 (constant S200x512 .f32 0x00000000#32)⟩, ⟨S200x512, matmul (φ₁ := .f32) (φ₂ := .f32) dot_S200x10000_S10000x512_S200x512_1_0_0_1_n_n none v3 v4 (constant S200x512 .f32 0x00000000#32)⟩] concatenates_S200x512_S200x512_S400x512_d0

/-- The first layer before its activation. -/
def lin1V (ag : FVec Ideal S400x512 .f32) (v9 : Vec Ideal S400x512 .f32) (v10 v13 : Vec Ideal S512x512 .f32) (v17 : Vec Ideal S1x512 .f32) : FVec Ideal S400x512 .f32 :=
  addf (addf (matmul (φ₁ := .f32) (φ₂ := .f32) dot_S400x512_S512x512_S400x512_1_0_0_1_n_n none v9 (shapeCast S512x512 v10 shapeCasts_S512x512_S512x512) (constant S400x512 .f32 0x00000000#32))
      (matmul (φ₁ := .f32) (φ₂ := .f32) dot_S400x512_S512x512_S400x512_1_0_0_1_n_n none ag (shapeCast S512x512 v13 shapeCasts_S512x512_S512x512) (constant S400x512 .f32 0x00000000#32)))
    (broadcastTo S400x512 (shapeCast S1x512 v17 shapeCasts_S1x512_S1x512) broadcasts_S1x512_S400x512)

/-- The first layer. -/
def hidV (l1 : FVec Ideal S400x512 .f32) : FVec Ideal S400x512 .f32 := maximumf l1 (broadcast S400x512 (Scalar.ofBits .f32 0x00000000#32))

/-- The second layer before its activation. -/
def lin2V (h : FVec Ideal S400x512 .f32) (v23 : Vec Ideal S512x512 .f32) (v25 : Vec Ideal S1x512 .f32) : FVec Ideal S400x512 .f32 :=
  addf (matmul (φ₁ := .f32) (φ₂ := .f32) dot_S400x512_S512x512_S400x512_1_0_0_1_n_n none h v23 (constant S400x512 .f32 0x00000000#32)) (broadcastTo S400x512 (shapeCast S1x512 v25 shapeCasts_S1x512_S1x512) broadcasts_S1x512_S400x512)

/-- The body's first payload is these stages composed. -/
theorem pay2_eq (v0 : Vec Ideal S200x10000 .f32) (v1 : Vec Ideal S10000x512 .f32) (v3 : Vec Ideal S200x10000 .f32) (v4 : Vec Ideal S10000x512 .f32)
    (v9 : Vec Ideal S400x512 .f32) (v10 v13 : Vec Ideal S512x512 .f32) (v17 : Vec Ideal S1x512 .f32) (v23 : Vec Ideal S512x512 .f32) (v25 : Vec Ideal S1x512 .f32) :
    k0_pay2 v0 v1 v3 v4 v9 v10 v13 v17 v23 v25 = lin2V (hidV (lin1V (aggV v0 v1 v3 v4) v9 v10 v13 v17)) v23 v25 := rfl

/-- The second layer and the prediction, from the second layer's pre-activation and its sign mask. -/
def outV (z : FVec Ideal S400x512 .f32) (mk : IVec S400x512 1) (v31 : Vec Ideal S1x512 .f32) (v36 : Vec Ideal S512x1 .f32) (v38 : Vec Ideal S1x1 .f32) : FVec Ideal S400x1 .f32 :=
  addf (matmul (φ₁ := .f32) (φ₂ := .f32) dot_S400x512_S512x1_S400x1_1_0_0_1_n_n none (select mk z (mulf (broadcastTo S400x512 (shapeCast S1x512 v31 shapeCasts_S1x512_S1x512) broadcasts_S1x512_S400x512) z)) v36 (constant S400x1 .f32 0x00000000#32))
    (broadcastTo S400x1 (shapeCast S1x1 v38 shapeCasts_S1x1_S1x1) broadcasts_S1x1_S400x1)

theorem pay1_eq (z : FVec Ideal S400x512 .f32) (mk : IVec S400x512 1) (v31 : Vec Ideal S1x512 .f32) (v36 : Vec Ideal S512x1 .f32) (v38 : Vec Ideal S1x1 .f32) :
    k0_pay1 z mk v31 v36 v38 = outV z mk v31 v36 v38 := rfl

theorem pay3_eq (v0 : Vec Ideal S200x10000 .f32) (v1 : Vec Ideal S10000x512 .f32) (v3 : Vec Ideal S200x10000 .f32) (v4 : Vec Ideal S10000x512 .f32)
    (v9 : Vec Ideal S400x512 .f32) (v10 v13 : Vec Ideal S512x512 .f32) (v17 : Vec Ideal S1x512 .f32) (v23 : Vec Ideal S512x512 .f32) (v25 : Vec Ideal S1x512 .f32) :
    k0_pay3 v0 v1 v3 v4 v9 v10 v13 v17 v23 v25 = cmpf .oge (k0_pay2 v0 v1 v3 v4 v9 v10 v13 v17 v23 v25) (broadcast S400x512 (Scalar.ofBits .f32 0x00000000#32)) := rfl

/-! ## A bias row broadcast along the rows, at an index -/

theorem row_at (v : Vec Ideal S1x512 .f32) (p : Fin 400) (j : Fin 512) :
    broadcastTo S400x512 (shapeCast S1x512 v shapeCasts_S1x512_S1x512) broadcasts_S1x512_S400x512 (ix2 p j) = v (ix2 (0 : Fin 1) j) := by
  rw [shapeCast_self]
  exact broadcastTo_apply v broadcasts_S1x512_S400x512 (ix2 p j) (ix2 (0 : Fin 1) j) (fun a => by
    match a with
    | ⟨0, _⟩ => rfl
    | ⟨1, _⟩ => rfl)

theorem one_at (v : Vec Ideal S1x1 .f32) (p : Fin 400) :
    broadcastTo S400x1 (shapeCast S1x1 v shapeCasts_S1x1_S1x1) broadcasts_S1x1_S400x1 (ix2 p (0 : Fin 1)) = v (ix2 (0 : Fin 1) (0 : Fin 1)) := by
  rw [shapeCast_self]
  exact broadcastTo_apply v broadcasts_S1x1_S400x1 (ix2 p (0 : Fin 1)) (ix2 (0 : Fin 1) (0 : Fin 1)) (fun a => by
    match a with
    | ⟨0, _⟩ => rfl
    | ⟨1, _⟩ => rfl)

/-! ## The stages at a row of the tile -/

section
variable (i : grid0.Coords)
  (x0 x1 : Vec Ideal S200x10000 .f32) (x3 x4 : Vec Ideal S512x512 .f32) (x5 : Vec Ideal S1x512 .f32)
  (x7 x8 : Vec Ideal S1x512 .f32) (x10 : Vec Ideal S1x1 .f32)
  (X : Arr2 10000 512) (A : Arr2 10000 10000) (W1 : Arr2 1024 512) (B1 : Arr1 512) (W2 : Arr2 512 512) (B2 : Arr1 512) (PA : Arr1 512)
  (W3 : Arr2 512 1) (B3 : Arr1 1)
  (p : Fin 400) (r : Fin 10000)

/-- The tile's aggregation at row p is the aggregation of node 400·i + p: rows below 200 come from the first
    adjacency block, the others from the second. -/
theorem agg_at (h0 : ∀ (q : Fin 200) (n : Fin 10000) (r : Fin 10000), r.val = 400 * (i 0).val + q.val → x0 (ix2 q n) = A (ix2 r n))
    (h1 : ∀ (q : Fin 200) (n : Fin 10000) (r : Fin 10000), r.val = 400 * (i 0).val + 200 + q.val → x1 (ix2 q n) = A (ix2 r n))
    (hr : r.val = 400 * (i 0).val + p.val) (c : Fin 512) :
    aggV x0 X x1 X (ix2 p c) = agg X A r c := by
  unfold aggV agg
  by_cases hp : p.val < 200
  · rw [concatenate_pair_apply_left (t := S400x512) (s₁ := S200x512) (s₂ := S200x512) (0 : Fin 2) _ _ concatenates_S200x512_S200x512_S400x512_d0 (ix2 p c) rfl (ix2 (⟨p.val, hp⟩ : Fin 200) c)
      (fun b => by match b with | ⟨0, _⟩ => rfl | ⟨1, _⟩ => rfl)]
    rw [mm_at dot_S200x10000_S10000x512_S200x512_1_0_0_1_n_n plain1]
    exact Finset.sum_congr rfl fun n _ => by rw [h0 ⟨p.val, hp⟩ n r hr]
  · have hp' : p.val - 200 < 200 := by have := p.isLt; omega
    rw [concatenate_pair_apply_right (t := S400x512) (s₁ := S200x512) (s₂ := S200x512) (0 : Fin 2) _ _ concatenates_S200x512_S200x512_S400x512_d0 (ix2 p c) rfl rfl (ix2 (⟨p.val - 200, hp'⟩ : Fin 200) c)
      (fun b hb => by match b with | ⟨0, _⟩ => exact absurd rfl hb | ⟨1, _⟩ => rfl)
      (by show (p.val - 200) + 200 = p.val; omega)]
    rw [mm_at dot_S200x10000_S10000x512_S200x512_1_0_0_1_n_n plain1]
    exact Finset.sum_congr rfl fun n _ => by
      rw [h1 ⟨p.val - 200, hp'⟩ n r (by show r.val = 400 * (i 0).val + 200 + (p.val - 200); omega)]

/-- The tile's own feature rows, read out of the feature matrix at row offset 400·i. -/
theorem xt_at (hr : r.val = 400 * (i 0).val + p.val) (c : Fin 512) : View.ld (Val := Elt Ideal) (e' := .f32) X (rXt i) (ix2 p c) = X (ix2 r c) := by
  show X ((rXt i).idx (ix2 p c)) = X (ix2 r c)
  congr 1
  funext a
  apply Fin.ext
  have ho := k0_off1_eq i
  match a with
  | ⟨0, _⟩ =>
    show k0_off1 i 0 + 1 * p.val = r.val
    rw [ho]
    show 400 * (i 0).val + 1 * p.val = r.val
    omega
  | ⟨1, _⟩ =>
    show k0_off1 i 1 + 1 * c.val = c.val
    rw [ho]
    show 0 + 1 * c.val = c.val
    omega

theorem lin1_at (ag v9 : FVec Ideal S400x512 .f32) (hag : ∀ c, ag (ix2 p c) = agg X A r c) (hxt : ∀ c, v9 (ix2 p c) = X (ix2 r c))
    (h3 : ∀ c j, x3 (ix2 c j) = W1 (ix2 (lo c) j)) (h4 : ∀ c j, x4 (ix2 c j) = W1 (ix2 (hi c) j))
    (h5 : ∀ j, x5 (ix2 (0 : Fin 1) j) = B1 (ix1 j)) (j : Fin 512) :
    lin1V ag v9 x3 x4 x5 (ix2 p j) = lin1 X A W1 B1 r j := by
  unfold lin1V lin1
  rw [addf_apply, addf_apply, mm_at dot_S400x512_S512x512_S400x512_1_0_0_1_n_n plain2, mm_at dot_S400x512_S512x512_S400x512_1_0_0_1_n_n plain2, row_at, shapeCast_self, shapeCast_self]
  simp only [hag, hxt, h3, h4, h5]

theorem hid_at (l1 : FVec Ideal S400x512 .f32) (j : Fin 512) (h : l1 (ix2 p j) = lin1 X A W1 B1 r j) :
    hidV l1 (ix2 p j) = hid X A W1 B1 r j := by
  unfold hidV hid
  rw [maximumf_apply, h]
  rfl

theorem lin2_at (h : FVec Ideal S400x512 .f32) (hh : ∀ j, h (ix2 p j) = hid X A W1 B1 r j)
    (h7 : ∀ k, x7 (ix2 (0 : Fin 1) k) = B2 (ix1 k)) (k : Fin 512) :
    lin2V h W2 x7 (ix2 p k) = lin2 X A W1 B1 W2 B2 r k := by
  unfold lin2V lin2
  rw [addf_apply, mm_at dot_S400x512_S512x512_S400x512_1_0_0_1_n_n plain2, row_at]
  simp only [hh, h7]

theorem out_at (z : FVec Ideal S400x512 .f32) (hz : ∀ k, z (ix2 p k) = lin2 X A W1 B1 W2 B2 r k)
    (h8 : ∀ k, x8 (ix2 (0 : Fin 1) k) = PA (ix1 k)) (h10 : x10 (ix2 (0 : Fin 1) (0 : Fin 1)) = B3 (ix1 (0 : Fin 1))) :
    outV z (cmpf .oge z (broadcast S400x512 (Scalar.ofBits .f32 0x00000000#32))) x8 W3 x10 (ix2 p (0 : Fin 1)) = out X A W1 B1 W2 B2 PA W3 B3 r := by
  unfold outV out
  rw [addf_apply, mm_at dot_S400x512_S512x1_S400x1_1_0_0_1_n_n plain3, one_at, h10]
  congr 1
  refine Finset.sum_congr rfl fun k _ => ?_
  rw [select_apply, mulf_apply, row_at, cmpf_apply, broadcast_apply, hz, h8]
  rfl

/-- THE TILE'S STORE at row p is the prediction of node 400·i + p, whenever the blocks hold what the hypotheses
    name of the argument arrays. -/
theorem stored_at
    (h0 : ∀ (q : Fin 200) (n : Fin 10000) (r : Fin 10000), r.val = 400 * (i 0).val + q.val → x0 (ix2 q n) = A (ix2 r n))
    (h1 : ∀ (q : Fin 200) (n : Fin 10000) (r : Fin 10000), r.val = 400 * (i 0).val + 200 + q.val → x1 (ix2 q n) = A (ix2 r n))
    (h3 : ∀ c j, x3 (ix2 c j) = W1 (ix2 (lo c) j)) (h4 : ∀ c j, x4 (ix2 c j) = W1 (ix2 (hi c) j))
    (h5 : ∀ j, x5 (ix2 (0 : Fin 1) j) = B1 (ix1 j)) (h7 : ∀ k, x7 (ix2 (0 : Fin 1) k) = B2 (ix1 k))
    (h8 : ∀ k, x8 (ix2 (0 : Fin 1) k) = PA (ix1 k)) (h10 : x10 (ix2 (0 : Fin 1) (0 : Fin 1)) = B3 (ix1 (0 : Fin 1)))
    (hr : r.val = 400 * (i 0).val + p.val) :
    out0_11 i x0 x1 X x3 x4 x5 W2 x7 x8 W3 x10 (ix2 p (0 : Fin 1)) = out X A W1 B1 W2 B2 PA W3 B3 r := by
  have hz2 : (![0, 0] : Fin 2 → Nat) = fun _ => 0 := funext fun a => by fin_cases a <;> rfl
  unfold out0_11
  rw [View.canon_unit_zero hz2]
  unfold zOf maskOf
  rw [pay1_eq, pay3_eq, pay2_eq]
  simp only [View.ld_unit_zero (S := S200x10000) hz2, View.ld_unit_zero (S := S10000x512) hz2, View.ld_unit_zero (S := S512x512) hz2,
    View.ld_unit_zero (S := S1x512) hz2, View.ld_unit_zero (S := S512x1) hz2, View.ld_unit_zero (S := S1x1) hz2]
  refine out_at x8 x10 X A W1 B1 W2 B2 PA W3 B3 p r _ (fun k => ?_) h8 h10
  refine lin2_at x7 X A W1 B1 W2 B2 p r _ (fun j => ?_) h7 k
  refine hid_at X A W1 B1 p r _ j ?_
  exact lin1_at x3 x4 x5 X A W1 B1 p r _ _ (agg_at i x0 x1 X A p r h0 h1 hr) (xt_at i X p r hr) h3 h4 h5 j

end

end Cert.KernelIdeal.Tile

end
-- ==== Proof.KernelIdealValue.lean ====
/-
  The kernel's result array after the run is the specification `GcnSpec.G` of the launch memory's nine arguments.

  Tile t writes back rows 400·t … 400·t + 399 of the [10000, 1] result, every tile, and the 25 tiles cover it. What
  tile t writes at row p is the body's store at row p of its input blocks (`Tile.stored_at`), and those blocks are:
  rows 400·t + q and 400·t + 200 + q of the adjacency matrix (the two windows' block indices are 2·t and 2·t + 1 of
  200 rows each); the whole feature matrix, second and third weight matrices; the upper and the lower half of the
  first weight matrix (the two host slices, at row offsets 0 and 512); and the three bias vectors and the slope
  vector as one row each (the four host reshapes keep the row-major order). So block t of the result is block t of
  `G`, and the whole array is `G`.
-/
import proofs.«160978_g85358180041300_cont_9to1c4b_830_32_alg».proof.Proof.KernelIdealFrame
import proofs.«160978_g85358180041300_cont_9to1c4b_830_32_alg».proof.Proof.KernelIdealTile
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Tile Cert.GcnSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host operations before the launch leave -/

theorem V_w1a (c : Dev nD) : (V m c main_call0_v0 : S512x512.Idx → EReal)
    = extractStridedSlice S512x512 ![0, 0] (m ((c : Thread nD τ).loc main_arg2)) slices_S1024x512_S512x512_0_0 := by
  dsimp only [V, hostOps0]; after_results; rfl
theorem V_w1b (c : Dev nD) : (V m c main_call0_v1 : S512x512.Idx → EReal)
    = extractStridedSlice S512x512 ![512, 0] (m ((c : Thread nD τ).loc main_arg2)) slices_S1024x512_S512x512_512_0 := by
  dsimp only [V, hostOps0]; after_results; rfl
theorem V_b1 (c : Dev nD) : (V m c main_call0_v2 : S1x512.Idx → EReal)
    = shapeCast S1x512 (m ((c : Thread nD τ).loc main_arg3)) shapeCasts_S512_S1x512 := by
  dsimp only [V, hostOps0]; after_results; rfl
theorem V_b2 (c : Dev nD) : (V m c main_call0_v3 : S1x512.Idx → EReal)
    = shapeCast S1x512 (m ((c : Thread nD τ).loc main_arg5)) shapeCasts_S512_S1x512 := by
  dsimp only [V, hostOps0]; after_results; rfl
theorem V_pa (c : Dev nD) : (V m c main_call0_v4 : S1x512.Idx → EReal)
    = shapeCast S1x512 (m ((c : Thread nD τ).loc main_arg6)) shapeCasts_S512_S1x512 := by
  dsimp only [V, hostOps0]; after_results; rfl
theorem V_b3 (c : Dev nD) : (V m c main_call0_v5 : S1x1.Idx → EReal)
    = shapeCast S1x1 (m ((c : Thread nD τ).loc main_arg8)) shapeCasts_S1_S1x1 := by
  dsimp only [V, hostOps0]; after_results; rfl

/-- The upper half of the first weight matrix at (a, j) is the matrix at (a, j); -/
theorem w1a_at (c : Dev nD) (a j : Fin 512) : V m c main_call0_v0 (ix2 a j) = m ((c : Thread nD τ).loc main_arg2) (ix2 (lo a) j) :=
  (congrFun (V_w1a m c) (ix2 a j)).trans (extractStridedSlice_apply ![0, 0] _ slices_S1024x512_S512x512_0_0 (ix2 a j) (ix2 (lo a) j) (fun b => by
    match b with
    | ⟨0, _⟩ => show a.val = 0 + a.val; omega
    | ⟨1, _⟩ => show j.val = 0 + j.val; omega))
/-- the lower half at (a, j) is the matrix at (512 + a, j). -/
theorem w1b_at (c : Dev nD) (a j : Fin 512) : V m c main_call0_v1 (ix2 a j) = m ((c : Thread nD τ).loc main_arg2) (ix2 (hi a) j) :=
  (congrFun (V_w1b m c) (ix2 a j)).trans (extractStridedSlice_apply ![512, 0] _ slices_S1024x512_S512x512_512_0 (ix2 a j) (ix2 (hi a) j) (fun b => by
    match b with
    | ⟨0, _⟩ => show 512 + a.val = 512 + a.val; rfl
    | ⟨1, _⟩ => show j.val = 0 + j.val; omega))

/-- A vector reshaped to one row, at (0, j), is the vector at j. -/
theorem row_of_vec (v : S512.Idx → EReal) (j : Fin 512) : shapeCast S1x512 v shapeCasts_S512_S1x512 (ix2 (0 : Fin 1) j) = v (ix1 j) :=
  shapeCast_apply v shapeCasts_S512_S1x512 (ix2 (0 : Fin 1) j) (ix1 j) (by
    rw [Shape.rowMajor_val_one, Shape.rowMajor_val_two]
    show j.val = 0 * 512 + j.val
    omega)
theorem one_of_vec (v : S1.Idx → EReal) : shapeCast S1x1 v shapeCasts_S1_S1x1 (ix2 (0 : Fin 1) (0 : Fin 1)) = v (ix1 (0 : Fin 1)) :=
  shapeCast_apply v shapeCasts_S1_S1x1 (ix2 (0 : Fin 1) (0 : Fin 1)) (ix1 (0 : Fin 1)) (by
    rw [Shape.rowMajor_val_one, Shape.rowMajor_val_two]
    rfl)

/-! ## The windows' block indices over the grid -/

theorem idx_facts : ∀ t : Fin cfg0.N, win0_0.index t (0 : Fin 2) = 2 * t.val
    ∧ win0_0.index t (1 : Fin 2) = 0
    ∧ win0_1.index t (0 : Fin 2) = 2 * t.val + 1
    ∧ win0_1.index t (1 : Fin 2) = 0
    ∧ win0_11.index t (0 : Fin 2) = t.val
    ∧ win0_11.index t (1 : Fin 2) = 0
    ∧ (grid0.coords t (0 : Fin 1)).val = t.val
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-! ## The blocks of the resident operands are the whole arrays -/

theorem blk_2 (c : Dev nD) (t : Fin cfg0.N) (y : S10000x512.Idx) : iblk m c 2 t y = V m c main_arg0 y := by
  obtain ⟨e00, e01, e10, e11, eo0, eo1, eg, z20, z21, z30, z31, z40, z41, z50, z51, z60, z61, z70, z71, z80, z81, z90, z91, z100, z101⟩ := idx_facts t
  show V m c main_arg0 (((cfg0.win 2).blk t).view.emb y) = V m c main_arg0 y
  congr 1
  funext a
  apply Fin.ext
  match a with
  | ⟨0, _⟩ => show win0_2.index t (0 : Fin 2) * 10000 + 1 * (y 0).val = (y 0).val; omega
  | ⟨1, _⟩ => show win0_2.index t (1 : Fin 2) * 512 + 1 * (y 1).val = (y 1).val; omega

theorem blk_3 (c : Dev nD) (t : Fin cfg0.N) (y : S512x512.Idx) : iblk m c 3 t y = V m c main_call0_v0 y := by
  obtain ⟨e00, e01, e10, e11, eo0, eo1, eg, z20, z21, z30, z31, z40, z41, z50, z51, z60, z61, z70, z71, z80, z81, z90, z91, z100, z101⟩ := idx_facts t
  show V m c main_call0_v0 (((cfg0.win 3).blk t).view.emb y) = V m c main_call0_v0 y
  congr 1
  funext a
  apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem blk_4 (c : Dev nD) (t : Fin cfg0.N) (y : S512x512.Idx) : iblk m c 4 t y = V m c main_call0_v1 y := by
  obtain ⟨e00, e01, e10, e11, eo0, eo1, eg, z20, z21, z30, z31, z40, z41, z50, z51, z60, z61, z70, z71, z80, z81, z90, z91, z100, z101⟩ := idx_facts t
  show V m c main_call0_v1 (((cfg0.win 4).blk t).view.emb y) = V m c main_call0_v1 y
  congr 1
  funext a
  apply Fin.ext
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem blk_5 (c : Dev nD) (t : Fin cfg0.N) (y : S1x512.Idx) : iblk m c 5 t y = V m c main_call0_v2 y := by
  obtain ⟨e00, e01, e10, e11, eo0, eo1, eg, z20, z21, z30, z31, z40, z41, z50, z51, z60, z61, z70, z71, z80, z81, z90, z91, z100, z101⟩ := idx_facts t
  show V m c main_call0_v2 (((cfg0.win 5).blk t).view.emb y) = V m c main_call0_v2 y
  congr 1
  funext a
  apply Fin.ext
  match a with
  | ⟨0, _⟩ => show win0_5.index t (0 : Fin 2) * 1 + 1 * (y 0).val = (y 0).val; omega
  | ⟨1, _⟩ => show win0_5.index t (1 : Fin 2) * 512 + 1 * (y 1).val = (y 1).val; omega

theorem blk_6 (c : Dev nD) (t : Fin cfg0.N) (y : S512x512.Idx) : iblk m c 6 t y = V m c main_arg4 y := by
  obtain ⟨e00, e01, e10, e11, eo0, eo1, eg, z20, z21, z30, z31, z40, z41, z50, z51, z60, z61, z70, z71, z80, z81, z90, z91, z100, z101⟩ := idx_facts t
  show V m c main_arg4 (((cfg0.win 6).blk t).view.emb y) = V m c main_arg4 y
  congr 1
  funext a
  apply Fin.ext
  match a with
  | ⟨0, _⟩ => show win0_6.index t (0 : Fin 2) * 512 + 1 * (y 0).val = (y 0).val; omega
  | ⟨1, _⟩ => show win0_6.index t (1 : Fin 2) * 512 + 1 * (y 1).val = (y 1).val; omega

theorem blk_7 (c : Dev nD) (t : Fin cfg0.N) (y : S1x512.Idx) : iblk m c 7 t y = V m c main_call0_v3 y := by
  obtain ⟨e00, e01, e10, e11, eo0, eo1, eg, z20, z21, z30, z31, z40, z41, z50, z51, z60, z61, z70, z71, z80, z81, z90, z91, z100, z101⟩ := idx_facts t
  show V m c main_call0_v3 (((cfg0.win 7).blk t).view.emb y) = V m c main_call0_v3 y
  congr 1
  funext a
  apply Fin.ext
  match a with
  | ⟨0, _⟩ => show win0_7.index t (0 : Fin 2) * 1 + 1 * (y 0).val = (y 0).val; omega
  | ⟨1, _⟩ => show win0_7.index t (1 : Fin 2) * 512 + 1 * (y 1).val = (y 1).val; omega

theorem blk_8 (c : Dev nD) (t : Fin cfg0.N) (y : S1x512.Idx) : iblk m c 8 t y = V m c main_call0_v4 y := by
  obtain ⟨e00, e01, e10, e11, eo0, eo1, eg, z20, z21, z30, z31, z40, z41, z50, z51, z60, z61, z70, z71, z80, z81, z90, z91, z100, z101⟩ := idx_facts t
  show V m c main_call0_v4 (((cfg0.win 8).blk t).view.emb y) = V m c main_call0_v4 y
  congr 1
  funext a
  apply Fin.ext
  match a with
  | ⟨0, _⟩ => show win0_8.index t (0 : Fin 2) * 1 + 1 * (y 0).val = (y 0).val; omega
  | ⟨1, _⟩ => show win0_8.index t (1 : Fin 2) * 512 + 1 * (y 1).val = (y 1).val; omega

theorem blk_9 (c : Dev nD) (t : Fin cfg0.N) (y : S512x1.Idx) : iblk m c 9 t y = V m c main_arg7 y := by
  obtain ⟨e00, e01, e10, e11, eo0, eo1, eg, z20, z21, z30, z31, z40, z41, z50, z51, z60, z61, z70, z71, z80, z81, z90, z91, z100, z101⟩ := idx_facts t
  show V m c main_arg7 (((cfg0.win 9).blk t).view.emb y) = V m c main_arg7 y
  congr 1
  funext a
  apply Fin.ext
  match a with
  | ⟨0, _⟩ => show win0_9.index t (0 : Fin 2) * 512 + 1 * (y 0).val = (y 0).val; omega
  | ⟨1, _⟩ => show win0_9.index t (1 : Fin 2) * 1 + 1 * (y 1).val = (y 1).val; omega

theorem blk_10 (c : Dev nD) (t : Fin cfg0.N) (y : S1x1.Idx) : iblk m c 10 t y = V m c main_call0_v5 y := by
  obtain ⟨e00, e01, e10, e11, eo0, eo1, eg, z20, z21, z30, z31, z40, z41, z50, z51, z60, z61, z70, z71, z80, z81, z90, z91, z100, z101⟩ := idx_facts t
  show V m c main_call0_v5 (((cfg0.win 10).blk t).view.emb y) = V m c main_call0_v5 y
  congr 1
  funext a
  apply Fin.ext
  match a with
  | ⟨0, _⟩ => show win0_10.index t (0 : Fin 2) * 1 + 1 * (y 0).val = (y 0).val; omega
  | ⟨1, _⟩ => show win0_10.index t (1 : Fin 2) * 1 + 1 * (y 1).val = (y 1).val; omega

/-! ## The result array -/

/-- The specification of the launch memory's arguments on core `c`. -/
abbrev Gm (c : Dev nD) : Arr2 10000 1 := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- `Tile.stored_at` at any index of the block, the whole-array operands given by equations. -/
theorem stored_idx (i : grid0.Coords)
    (x0 x1 : Vec Ideal S200x10000 .f32) (x2 : Vec Ideal S10000x512 .f32) (x3 x4 : Vec Ideal S512x512 .f32) (x5 : Vec Ideal S1x512 .f32)
    (x6 : Vec Ideal S512x512 .f32) (x7 x8 : Vec Ideal S1x512 .f32) (x9 : Vec Ideal S512x1 .f32) (x10 : Vec Ideal S1x1 .f32)
    (X : Arr2 10000 512) (A : Arr2 10000 10000) (W1 : Arr2 1024 512) (B1 : Arr1 512) (W2 : Arr2 512 512) (B2 : Arr1 512) (PA : Arr1 512)
    (W3 : Arr2 512 1) (B3 : Arr1 1) (y : S400x1.Idx) (r : Fin 10000)
    (h0 : ∀ (q : Fin 200) (n : Fin 10000) (r : Fin 10000), r.val = 400 * (i 0).val + q.val → x0 (ix2 q n) = A (ix2 r n))
    (h1 : ∀ (q : Fin 200) (n : Fin 10000) (r : Fin 10000), r.val = 400 * (i 0).val + 200 + q.val → x1 (ix2 q n) = A (ix2 r n))
    (h2 : x2 = X) (h3 : ∀ c j, x3 (ix2 c j) = W1 (ix2 (lo c) j)) (h4 : ∀ c j, x4 (ix2 c j) = W1 (ix2 (hi c) j))
    (h5 : ∀ j, x5 (ix2 (0 : Fin 1) j) = B1 (ix1 j)) (h6 : x6 = W2) (h7 : ∀ k, x7 (ix2 (0 : Fin 1) k) = B2 (ix1 k))
    (h8 : ∀ k, x8 (ix2 (0 : Fin 1) k) = PA (ix1 k)) (h9 : x9 = W3) (h10 : x10 (ix2 (0 : Fin 1) (0 : Fin 1)) = B3 (ix1 (0 : Fin 1)))
    (hr : r.val = 400 * (i 0).val + (y 0).val) :
    out0_11 i x0 x1 x2 x3 x4 x5 x6 x7 x8 x9 x10 y = out X A W1 B1 W2 B2 PA W3 B3 r := by
  subst h2 h6 h9
  obtain ⟨p, q, rfl⟩ : ∃ (p : Fin 400) (q : Fin 1), y = ix2 p q := ⟨y 0, y 1, eq_ix2 y⟩
  obtain rfl : q = 0 := Subsingleton.elim _ _
  exact stored_at i x0 x1 x3 x4 x5 x7 x8 x10 x2 A W1 B1 x6 B2 PA x9 B3 p r h0 h1 h3 h4 h5 h7 h8 h10 hr

/-- WHAT TILE `t` WRITES BACK is block `t` of the specification. -/
theorem flushed_eq (c : Dev nD) (t : Fin cfg0.N) :
    (dats m 0 c).flushed 11 t = ((cfg0.win 11).blk t).view.read (Elt Ideal) (Gm m c) := by
  show (cfg0.win 11).cut (grid0.coords t) ((dats m 0 c).after 11 t) = _
  rw [after0_11]
  obtain ⟨e00, e01, e10, e11, eo0, eo1, eg, z20, z21, z30, z31, z40, z41, z50, z51, z60, z61, z70, z71, z80, z81, z90, z91, z100, z101⟩ := idx_facts t
  funext y
  show out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((((cfg0.win 11).blk t).view.emb y) 0)
  refine stored_idx (grid0.coords t) _ _ _ _ _ _ _ _ _ _ _ _ _ _ _ _ _ _ _ _ y _ ?_ ?_ ?_ ?_ ?_ ?_ ?_ ?_ ?_ ?_ ?_ ?_
  · intro q n r hr
    show V m c main_arg1 (((cfg0.win 0).blk t).view.emb (ix2 q n)) = _
    rw [V_main_arg1]
    congr 1
    funext a
    apply Fin.ext
    match a with
    | ⟨0, _⟩ => show win0_0.index t (0 : Fin 2) * 200 + 1 * q.val = r.val; omega
    | ⟨1, _⟩ => show win0_0.index t (1 : Fin 2) * 10000 + 1 * n.val = n.val; omega
  · intro q n r hr
    show V m c main_arg1 (((cfg0.win 1).blk t).view.emb (ix2 q n)) = _
    rw [V_main_arg1]
    congr 1
    funext a
    apply Fin.ext
    match a with
    | ⟨0, _⟩ => show win0_1.index t (0 : Fin 2) * 200 + 1 * q.val = r.val; omega
    | ⟨1, _⟩ => show win0_1.index t (1 : Fin 2) * 10000 + 1 * n.val = n.val; omega
  · exact funext fun y => (blk_2 m c t y).trans (congrFun (V_main_arg0 m c) y)
  · intro a j; exact (blk_3 m c t _).trans (w1a_at m c a j)
  · intro a j; exact (blk_4 m c t _).trans (w1b_at m c a j)
  · intro j; exact (blk_5 m c t _).trans ((congrFun (V_b1 m c) _).trans (row_of_vec _ j))
  · exact funext fun y => (blk_6 m c t y).trans (congrFun (V_main_arg4 m c) y)
  · intro k; exact (blk_7 m c t _).trans ((congrFun (V_b2 m c) _).trans (row_of_vec _ k))
  · intro k; exact (blk_8 m c t _).trans ((congrFun (V_pa m c) _).trans (row_of_vec _ k))
  · exact funext fun y => (blk_9 m c t y).trans (congrFun (V_main_arg7 m c) y)
  · exact (blk_10 m c t _).trans ((congrFun (V_b3 m c) _).trans (one_of_vec _))
  · show win0_11.index t (0 : Fin 2) * 400 + 1 * (y 0).val = 400 * (grid0.coords t (0 : Fin 1)).val + (y 0).val
    omega

/-- An index of the result is in tile `t`'s block iff each coordinate is in the block's range on its axis. -/
theorem mem_blk (t : Fin cfg0.N) (i : S10000x1.Idx) :
    i ∈ ((cfg0.win 11).blk t).view.set ↔ ∀ a : Fin 2, win0_11.index t a * S400x1.size a ≤ (i a).val ∧ (i a).val < win0_11.index t a * S400x1.size a + S400x1.size a := by
  show i ∈ ((View.whole main_v0).slice (win0_11.rect t)).set ↔ _
  rw [View.set_slice_whole, Rect.mem_set_unit]
  exact Iff.rfl

/-- Every row of the result lies in some tile's block: row r in tile r / 400. -/
theorem cover (i : S10000x1.Idx) : ∃ t : Fin cfg0.N, (cfg0.win 11).flush t = true ∧ i ∈ ((cfg0.win 11).blk t).view.set := by
  have hi0 : (i 0).val < 10000 := (i 0).isLt
  have hi1 : (i 1).val < 1 := (i 1).isLt
  have hlt : (i 0).val / 400 < 25 := by omega
  let t : Fin cfg0.N := ⟨(i 0).val / 400, hlt⟩
  obtain ⟨e00, e01, e10, e11, eo0, eo1, eg, z20, z21, z30, z31, z40, z41, z50, z51, z60, z61, z70, z71, z80, z81, z90, z91, z100, z101⟩ := idx_facts t
  refine ⟨t, flush0_11 t, ?_⟩
  rw [mem_blk]
  have ht : t.val = (i 0).val / 400 := rfl
  intro a
  match a with
  | ⟨0, _⟩ =>
    show win0_11.index t (0 : Fin 2) * 400 ≤ (i 0).val ∧ (i 0).val < win0_11.index t (0 : Fin 2) * 400 + 400
    omega
  | ⟨1, _⟩ =>
    show win0_11.index t (1 : Fin 2) * 1 ≤ (i 1).val ∧ (i 1).val < win0_11.index t (1 : Fin 2) * 1 + 1
    omega

/-- THE RESULT ARRAY after the run is the specification of the launch memory. -/
theorem final (c : Dev nD) : (dats m 0 c).arrAt 11 cfg0.N = Gm m c :=
  (dats m 0 c).arrAt_eq_of_cover 11 (Gm m c) (fun t _ => flushed_eq m c t) cover

/-- The run, read: the result array at the specification, the nine arguments unchanged. -/
theorem run : θ_run defs (onTc (τ := τ) (main (F := Ideal))) ⟨m, fun _ => 0, ρ⟩ fun r => ∀ c : Dev nD,
      r.2.mem ((c.tc : Thread nD τ).loc main_v0) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 11).trans (final m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 9).trans (((dats m 0 c).arrAt_in 9 rfl _).trans ((A_eq m c 9).trans (V_main_arg7 m c))),
      ((h c).2 main_arg8 (Pipeline.mem_restRefs_of main_arg8 (by decide) (by decide))).trans (V_main_arg8 m c)⟩) (run_main m ρ)

end Cert.KernelIdeal.KValue

end
-- ==== Proof.RefValue.lean ====
/-
  The reference program's result is the specification `GcnSpec.G` of its nine arguments, index by index.

  The reference's operations are read one at a time at an index (the generated stage lemmas): the aggregation is
  the sum over all nodes; the concatenation [x, agg] read at column k is x at k for k < 512 and agg at k - 512
  otherwise, so its product with W1 — one sum over 1024 — splits into the two sums of 512 (`GcnSpec.sum_halves`);
  the bias rows are broadcast along the rows; ReLU is the maximum with the zero word; PReLU is the selection by
  the comparison with the zero word between the value and its product with the slope; the last product has one
  column.
-/
import proofs.«160978_g85358180041300_cont_9to1c4b_830_32_alg».proof.Proof.Gen.ReferenceIdeal.Read
import proofs.«160978_g85358180041300_cont_9to1c4b_830_32_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.GcnSpec

variable (x0 : (⟨S10000x512, .f32⟩ : BufTy).Contents (Elt Ideal)) (x1 : (⟨S10000x10000, .f32⟩ : BufTy).Contents (Elt Ideal))
  (x2 : (⟨S1024x512, .f32⟩ : BufTy).Contents (Elt Ideal)) (x3 : (⟨S512, .f32⟩ : BufTy).Contents (Elt Ideal))
  (x4 : (⟨S512x512, .f32⟩ : BufTy).Contents (Elt Ideal)) (x5 x6 : (⟨S512, .f32⟩ : BufTy).Contents (Elt Ideal))
  (x7 : (⟨S512x1, .f32⟩ : BufTy).Contents (Elt Ideal)) (x8 : (⟨S1, .f32⟩ : BufTy).Contents (Elt Ideal))

/-- The aggregation at (r, c): row r of adj against column c of x. -/
theorem v0_at (r : Fin 10000) (c : Fin 512) : val_main_v0 (F := Ideal) x0 x1 (ix2 r c) = agg x0 x1 r c := by
  rw [val_main_v0_apply]
  unfold agg
  refine Finset.sum_congr rfl fun n _ => ?_
  have el : lidx_main_v0 (ix2 r c) n = ix2 r n := funext fun a => by match a with | ⟨0, _⟩ => rfl | ⟨1, _⟩ => rfl
  have er : ridx_main_v0 (ix2 r c) n = ix2 n c := funext fun a => by match a with | ⟨0, _⟩ => rfl | ⟨1, _⟩ => rfl
  rw [el, er]

/-- The concatenation [x, agg] at a column of the first half is x there, -/
theorem v1_lo (r : Fin 10000) (c : Fin 512) : val_main_v1 (F := Ideal) x0 x1 (ix2 r (lo c)) = x0 (ix2 r c) := by
  unfold val_main_v1
  exact concatenate_pair_apply_left (1 : Fin 2) x0 _ concatenates_S10000x512_S10000x512_S10000x1024_d1 (ix2 r (lo c)) rfl (ix2 r c)
    (fun b => by match b with | ⟨0, _⟩ => rfl | ⟨1, _⟩ => rfl)

/-- and at a column of the second half the aggregation, 512 columns back. -/
theorem v1_hi (r : Fin 10000) (c : Fin 512) : val_main_v1 (F := Ideal) x0 x1 (ix2 r (hi c)) = agg x0 x1 r c := by
  unfold val_main_v1
  rw [concatenate_pair_apply_right (1 : Fin 2) x0 (val_main_v0 (F := Ideal) x0 x1) concatenates_S10000x512_S10000x512_S10000x1024_d1 (ix2 r (hi c)) rfl rfl (ix2 r c)
    (fun b hb => by match b with | ⟨0, _⟩ => rfl | ⟨1, _⟩ => exact absurd rfl hb)
    (by show c.val + 512 = 512 + c.val; omega)]
  exact v0_at x0 x1 r c

/-- The first layer before its activation. -/
theorem v5_at (r : Fin 10000) (j : Fin 512) : val_main_v5 (F := Ideal) x0 x1 x2 x3 (ix2 r j) = lin1 x0 x1 x2 x3 r j := by
  rw [val_main_v5_apply, val_main_v2_apply, val_main_v4_apply, val_main_v3_apply]
  unfold lin1
  have el : ∀ k : Fin 1024, lidx_main_v2 (ix2 r j) k = ix2 r k := fun k => funext fun a => by match a with | ⟨0, _⟩ => rfl | ⟨1, _⟩ => rfl
  have er : ∀ k : Fin 1024, ridx_main_v2 (ix2 r j) k = ix2 k j := fun k => funext fun a => by match a with | ⟨0, _⟩ => rfl | ⟨1, _⟩ => rfl
  have eb : idx_main_v3 (idx_main_v4 (ix2 r j)) = ix1 j := funext fun a => by match a with | ⟨0, _⟩ => rfl
  simp only [el, er, eb]
  rw [sum_halves]
  simp only [v1_lo, v1_hi]
  rfl

/-- The first layer: ReLU. -/
theorem v6_at (r : Fin 10000) (j : Fin 512) : val_main_v6 (F := Ideal) x0 x1 x2 x3 (ix2 r j) = hid x0 x1 x2 x3 r j := by
  rw [val_main_v6_apply, v5_at, val_main_call0_v0_apply, val_main_call0_cst_apply]
  rfl

/-- The second layer before its activation. -/
theorem v10_at (r : Fin 10000) (k : Fin 512) : val_main_v10 (F := Ideal) x0 x1 x2 x3 x4 x5 (ix2 r k) = lin2 x0 x1 x2 x3 x4 x5 r k := by
  rw [val_main_v10_apply, val_main_v7_apply, val_main_v9_apply, val_main_v8_apply]
  unfold lin2
  have el : ∀ j : Fin 512, lidx_main_v7 (ix2 r k) j = ix2 r j := fun j => funext fun a => by match a with | ⟨0, _⟩ => rfl | ⟨1, _⟩ => rfl
  have er : ∀ j : Fin 512, ridx_main_v7 (ix2 r k) j = ix2 j k := fun j => funext fun a => by match a with | ⟨0, _⟩ => rfl | ⟨1, _⟩ => rfl
  have eb : idx_main_v8 (idx_main_v9 (ix2 r k)) = ix1 k := funext fun a => by match a with | ⟨0, _⟩ => rfl
  simp only [el, er, eb, v6_at]
  rfl

/-- The second layer: PReLU. -/
theorem v16_at (r : Fin 10000) (k : Fin 512) : val_main_v16 (F := Ideal) x0 x1 x2 x3 x4 x5 x6 (ix2 r k) = act x0 x1 x2 x3 x4 x5 x6 r k := by
  rw [val_main_v16_apply, val_main_v12_apply, val_main_v15_apply, v10_at, val_main_v11_apply, val_main_cst_apply, val_main_v14_apply, val_main_v13_apply]
  unfold act
  have eb : idx_main_v13 (idx_main_v14 (ix2 r k)) = ix1 k := funext fun a => by match a with | ⟨0, _⟩ => rfl
  rw [eb]
  rfl

/-- THE REFERENCE'S RESULT is the specification of its arguments. -/
theorem result_eq : val_main_v20 (F := Ideal) x0 x1 x2 x3 x4 x5 x6 x7 x8 = G x0 x1 x2 x3 x4 x5 x6 x7 x8 := by
  funext i
  obtain ⟨r, q, rfl⟩ : ∃ (r : Fin 10000) (q : Fin 1), i = ix2 r q := ⟨i 0, i 1, eq_ix2 i⟩
  obtain rfl : q = 0 := Subsingleton.elim _ _
  rw [val_main_v20_apply, val_main_v17_apply, val_main_v19_apply, val_main_v18_apply]
  unfold G out
  have el : ∀ k : Fin 512, lidx_main_v17 (ix2 r (0 : Fin 1)) k = ix2 r k := fun k => funext fun a => by match a with | ⟨0, _⟩ => rfl | ⟨1, _⟩ => rfl
  have er : ∀ k : Fin 512, ridx_main_v17 (ix2 r (0 : Fin 1)) k = ix2 k (0 : Fin 1) := fun k => funext fun a => by match a with | ⟨0, _⟩ => rfl | ⟨1, _⟩ => rfl
  have eb : idx_main_v18 (idx_main_v19 (ix2 r (0 : Fin 1))) = ix1 (0 : Fin 1) := funext fun a => by match a with | ⟨0, _⟩ => rfl
  simp only [el, er, eb, v16_at]
  rfl

end Cert.ReferenceIdeal.RefValue

end
-- ==== Proof.lean ====
/-
  A two-layer graph-convolution head over a dense adjacency matrix: for 10000 nodes with 512 features,
  agg = adj · x, h = relu([x, agg] · W1 + b1), z = h · W2 + b2, p = prelu(z), pred = p · W3 + b3, a [10000, 1] array.

  The kernel computes it in one launch over 25 tiles of 400 rows: each tile reads its 400 rows of the adjacency
  matrix as two blocks of 200 (two windows on the one array), multiplies them by the resident feature matrix,
  and applies the head to its rows, with the product [x, agg] · W1 written as x · W1[0:512] + agg · W1[512:1024].
  The reference computes the same with whole-array operations. Over the extended reals both are the one function
  `GcnSpec.G` of the nine arguments (Proof/Spec.lean): the reference by reading its operations at an index
  (Proof/RefValue.lean), the kernel tile by tile (Proof/KernelIdealTile.lean, Proof/KernelIdealValue.lean); the only
  law between the two arrangements is that a sum over 1024 indices is the sum of its two halves, which holds at
  infinities too, so the precondition (finite inputs) is never opened.

  The three frames: the kernel's launch, at the word level and idealized, by the launch theorem for windows that
  share an array, the adjacency matrix's share dealt in halves to its two windows (Proof/KernelFrame.lean,
  Proof/KernelIdealFrame.lean, over the body's triple in Proof/KernelBody.lean, Proof/KernelIdealBody.lean); the
  reference's is its run with the result dropped. The idealization rewrote nothing, so `preserves` is trivial.
-/
import proofs.«160978_g85358180041300_cont_9to1c4b_830_32_alg».proof.Defs
import proofs.«160978_g85358180041300_cont_9to1c4b_830_32_alg».proof.Proof.Gen.Kernel
import proofs.«160978_g85358180041300_cont_9to1c4b_830_32_alg».proof.Proof.Gen.Kernel.Skeleton
import proofs.«160978_g85358180041300_cont_9to1c4b_830_32_alg».proof.Proof.Gen.Kernel.Launch
import proofs.«160978_g85358180041300_cont_9to1c4b_830_32_alg».proof.Proof.Gen.Kernel.Points
import proofs.«160978_g85358180041300_cont_9to1c4b_830_32_alg».proof.Proof.Gen.KernelIdeal
import proofs.«160978_g85358180041300_cont_9to1c4b_830_32_alg».proof.Proof.Gen.KernelIdeal.Skeleton
import proofs.«160978_g85358180041300_cont_9to1c4b_830_32_alg».proof.Proof.Gen.KernelIdeal.Launch
import proofs.«160978_g85358180041300_cont_9to1c4b_830_32_alg».proof.Proof.Gen.KernelIdeal.Points
import proofs.«160978_g85358180041300_cont_9to1c4b_830_32_alg».proof.Proof.Gen.ReferenceIdeal
import proofs.«160978_g85358180041300_cont_9to1c4b_830_32_alg».proof.Proof.Gen.ReferenceIdeal.Run
import proofs.«160978_g85358180041300_cont_9to1c4b_830_32_alg».proof.Proof.Gen.ReferenceIdeal.Read
import proofs.«160978_g85358180041300_cont_9to1c4b_830_32_alg».proof.Proof.Gen.Pre_finite_inputs
import proofs.«160978_g85358180041300_cont_9to1c4b_830_32_alg».proof.Proof.KernelFrame
import proofs.«160978_g85358180041300_cont_9to1c4b_830_32_alg».proof.Proof.KernelIdealFrame
import proofs.«160978_g85358180041300_cont_9to1c4b_830_32_alg».proof.Proof.KernelIdealValue
import proofs.«160978_g85358180041300_cont_9to1c4b_830_32_alg».proof.Proof.RefValue
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, run from memories that agree on the nine arguments, end with the result array at
    `GcnSpec.G` of those arguments. -/
theorem algebraic : Cert.algebraic_KernelIdeal_ReferenceIdeal := by
  intro m ρ m' ρ' _ hagree
  refine ⟨fun c => Cert.KernelIdeal.KValue.Gm m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v20_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
